-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128 .f32) (main_arg6 : FVec F S128x1 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg6
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S1x128 : Shape := ⟨2, ![1, 128]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩

abbrev nBuf : Space → Nat
  | .hbm => 51
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S1x128, .f32⟩
  | .hbm, ⟨13, _⟩ => ⟨S50000x128, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S1x128, .f32⟩
  | .hbm, ⟨28, _⟩ => ⟨S50000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S_, .i32⟩
  | .hbm, ⟨43, _⟩ => ⟨S_, .f32⟩
  | .hbm, ⟨44, _⟩ => ⟨S128x128, .f32⟩
  | .hbm, ⟨45, _⟩ => ⟨S_, .i32⟩
  | .hbm, ⟨46, _⟩ => ⟨S_, .f32⟩
  | .hbm, ⟨47, _⟩ => ⟨S128, .f32⟩
  | .hbm, ⟨48, _⟩ => ⟨S1x128, .f32⟩
  | .hbm, ⟨49, _⟩ => ⟨S50000x128, .f32⟩
  | .hbm, ⟨50, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_1 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_call0_v0 : Ref sig .tc := ⟨.hbm, 43, rfl⟩
abbrev main_v28 : Ref sig .tc := ⟨.hbm, 44, rfl⟩
abbrev main_c_5 : Ref sig .tc := ⟨.hbm, 45, rfl⟩
abbrev main_call1_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S5000x128_S5000x128 : S5000x128.ShapeCasts S5000x128
  pads_S128x1_S128x128_000_01270 : S128x1.Pads (![0, 0] : Fin 2 → Nat) ![0, 127] ![0, 0] S128x128
  h_S_ : 0 < S_.numel
  pads_S1_S128_01270 : S1.Pads (![0] : Fin 1 → Nat) ![127] ![0] S128
  shapeCasts_S128x128_S128x128 : S128x128.ShapeCasts S128x128
  slices_S50000x128_S50000x1_0_0 : S50000x128.Slices ![0, 0] S50000x1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x1 : Shape := ⟨2, ![50000, 1]⟩
abbrev S1x1 : Shape := ⟨2, ![1, 1]⟩

abbrev nBuf : Space → Nat
  | .hbm => 56
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x128, .f32⟩
  | .hbm, ⟨22, _⟩ => ⟨S1x128, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S800000x128, .f32⟩
  | .hbm, ⟨42, _⟩ => ⟨S1x128, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S800000x128, .f32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S50000x1, .f32⟩
  | .hbm, ⟨53, _⟩ => ⟨S1x1, .f32⟩
  | .hbm, ⟨54, _⟩ => ⟨S50000x1, .f32⟩
  | .hbm, ⟨55, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_cst : Ref sig .tc := ⟨.hbm, 25, rfl⟩
abbrev main_call0_v0 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call1_cst : Ref sig .tc := ⟨.hbm, 45, rfl⟩
abbrev main_call1_v0 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.WholeRun.lean ====
/-
  The whole program's run with its result read.

  The program is eleven segments: stretches of host operations and three kernel regions, in order. The buffer contents at
  each boundary are a fold from the launch memory (W0 … W11 of the generated frame module): a stretch applies its
  operations, a region replaces its arrays by what its write-backs leave. Every weakly fair execution terminates, nothing
  faulting, with every unscoped buffer at the last boundary's contents W11. The generated frame reads the eight argument
  arrays off that final state; here the result buffer is read off it too, so that its value can be computed by walking
  the fold back to the launch memory.
-/
import proofs.«111133_j412316860424_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the eight argument arrays as launched. -/
theorem run : θ_run defs (onTc (τ := τ) (main (F := F))) ⟨m, fun _ => 0, ρ⟩ (fun r => ∀ c : Dev nD,
      r.2.mem ((c.tc : Thread nD τ).loc main_v32) = W11 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v32 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Whole

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.LibDenseLayers.lean ====
/-
  GENERAL LEMMAS: dense layers as functions on extended reals. Nothing here mentions a program; every extent is arbitrary.

  An affine layer sends a matrix h of R rows and K columns to h · W + b: entry (p, q) is the sum over k of
  h(p, k) * W(k, q), plus b(q). The rectifier replaces every entry by the larger of it and zero. Two compositions
  are named: stage1 = rectifier ∘ affine, and stage2 = affine ∘ affine ∘ rectifier ∘ affine.

  Two facts are proved here, for any extents.
  * ROW-LOCALITY: row p of an affine layer's result depends only on row p of h. So a stage applied to a block of
    consecutive rows of a matrix is that block of rows of the stage applied to the whole matrix: this is what lets a
    computation tiled over blocks of rows be read as one computation on the whole matrix.
  * THE TWO SPELLINGS: a matrix product into a zero accumulator plus a vector cast to one row and laid along the rows,
    and a dot_general plus a vector broadcast twice, are both the affine layer.
  No law of extended-real arithmetic is used beyond re-indexing a finite sum, so nothing here needs finite entries.
-/
import Idealize.ShloMosaic.PureOps.Ideal
import Idealize.ShloMosaic.PureOps.Ideal.Laws
import Idealize.ShloMosaic.Lib.ValueIdx
import proofs.«111133_j412316860424_1_alg».proof.Proof.LibMatmulRows
import proofs.«111133_j412316860424_1_alg».proof.Proof.LibBiasRows

noncomputable section

namespace Cert.LibDenseLayers

open Idealize.ShloMosaic Idealize.ShloMosaic.ValueIdx
open scoped BigOperators

/-- Entry (p, q) of the affine layer h · W + b: row p of h against column q of W, plus the bias at q. -/
def affineAt {R K N : ℕ} (h : (⟨2, ![R, K]⟩ : Shape).Idx → EReal) (W : (⟨2, ![K, N]⟩ : Shape).Idx → EReal)
    (b : (⟨1, ![N]⟩ : Shape).Idx → EReal) (p : Fin R) (q : Fin N) : EReal :=
  (∑ k : Fin K, h (ix2 p k) * W (ix2 k q)) + b (ix1 q)

/-- The affine layer h · W + b as a matrix of R rows and N columns. -/
def affine {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => affineAt h W b (i 0) (i 1)

/-- The rectifier: every entry replaced by the larger of it and the single-precision zero. -/
def relu {s : Shape} (a : s.Idx → EReal) : s.Idx → EReal :=
  fun i => max (a i) (Ideal.ofBits .f32 0x00000000#32)

/-- The first dense stage: rectified affine layer. -/
def stage1 {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  relu (affine h W b)

/-- The second dense stage: a rectified affine layer followed by two affine layers. -/
def stage2 {R K N M L : ℕ} (h : (⟨2, ![R, K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) :
    (⟨2, ![R, L]⟩ : Shape).Idx → EReal :=
  affine (affine (relu (affine h W2 b2)) W3 b3) W4 b4

/-! ## Row-locality -/

/-- Row p of an affine layer of h is row p' of the affine layer of h' when row p of h is row p' of h'. -/
theorem affineAt_congr {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    affineAt h W b p q = affineAt h' W b p' q := by
  unfold affineAt
  exact congrArg (· + b (ix1 q)) (Finset.sum_congr rfl fun k _ => by rw [hh k])

/-- The first stage on a matrix whose row p is row p' of another: the same row of results. -/
theorem stage1_row {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    stage1 h W b (ix2 p q) = stage1 h' W b (ix2 p' q) := by
  show max (affineAt h W b p q) _ = max (affineAt h' W b p' q) _
  rw [affineAt_congr h h' W b p p' hh q]

/-- The second stage on a matrix whose row p is row p' of another: the same row of results. -/
theorem stage2_row {R R' K N M L : ℕ} (h : (⟨2, ![R, K]⟩ : Shape).Idx → EReal) (h' : (⟨2, ![R', K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) (p : Fin R) (p' : Fin R')
    (hh : ∀ k : Fin K, h (ix2 p k) = h' (ix2 p' k)) (q : Fin L) :
    stage2 h W2 b2 W3 b3 W4 b4 (ix2 p q) = stage2 h' W2 b2 W3 b3 W4 b4 (ix2 p' q) := by
  show affineAt (affine (relu (affine h W2 b2)) W3 b3) W4 b4 p q
     = affineAt (affine (relu (affine h' W2 b2)) W3 b3) W4 b4 p' q
  refine affineAt_congr _ _ W4 b4 p p' (fun k => ?_) q
  show affineAt (relu (affine h W2 b2)) W3 b3 p k = affineAt (relu (affine h' W2 b2)) W3 b3 p' k
  refine affineAt_congr _ _ W3 b3 p p' (fun k' => ?_) k
  show max (affineAt h W2 b2 p k') _ = max (affineAt h' W2 b2 p' k') _
  rw [affineAt_congr h h' W2 b2 p p' hh k']

/-! ## The two spellings of an affine layer -/

/-- The matrix unit's product into a zero accumulator, plus a vector cast to one row and laid along the rows, is the
    affine layer. The operands of the product may carry any float format: on extended reals a format is no change. -/
theorem affine_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (b : FVec Ideal ⟨1, ![N]⟩ .f32) :
    addf (matmul d none h W (constant (F := Ideal) ⟨2, ![R, N]⟩ .f32 0x00000000#32))
      (broadcastTo ⟨2, ![R, N]⟩ (shapeCast ⟨2, ![1, N]⟩ b hc) hb) = affine h W b := by
  funext j
  obtain ⟨p, q, rfl⟩ : ∃ (p : Fin R) (q : Fin N), j = ix2 p q := ⟨j 0, j 1, eq_ix2 j⟩
  show matmul d none h W (constant (F := Ideal) ⟨2, ![R, N]⟩ .f32 0x00000000#32) (ix2 p q)
      + broadcastTo ⟨2, ![R, N]⟩ (shapeCast ⟨2, ![1, N]⟩ b hc) hb (ix2 p q) = affineAt h W b p q
  rw [Cert.LibMatmulRows.matmul_rows d hrank hsize hl0 hl1 hr0 hr1 h W p q, Cert.LibBiasRows.bias_rows b hc hb p q]
  rfl

/-- The host's dot_general, plus a vector broadcast to one row and then along the rows, is the affine layer. -/
theorem affine_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, Cert.LibBiasRows.bias_host hN b h1 h2 p q]
  rfl

end Cert.LibDenseLayers

end
-- ==== Proof.LibRowBias.lean ====
/-
  GENERAL LEMMAS: a bias vector kept as a matrix of ONE row, [1, N]. Nothing here mentions a program; the number of rows R,
  the contracted extent K and the bias's length N are arbitrary.

  * rowOf: the one row of a [1, N] matrix as a vector of length N; a vector cast to [1, N] has itself as that row.
  * bias_block: a [1, N] matrix cast to its own shape and laid along R rows reads, at (p, q), its row at q.
  * affineAt_of_matmul_row: the matrix unit's product into a zero accumulator plus such a one-row bias, read at (p, q), is
    the entry (p, q) of the affine layer h · W + b with b the row.
  Entries of any type for the layout facts; the affine fact is on extended reals and needs no finiteness.
-/
import Idealize.ShloMosaic.PureOps.Ideal
import Idealize.ShloMosaic.PureOps.Ideal.Laws
import Idealize.ShloMosaic.Lib.Pipeline.Value
import Idealize.ShloMosaic.Lib.ValueLayout
import Idealize.ShloMosaic.Lib.ValueIdx
import proofs.«111133_j412316860424_1_alg».proof.Proof.LibMatmulRows
import proofs.«111133_j412316860424_1_alg».proof.Proof.LibDenseLayers

noncomputable section

namespace Cert.LibRowBias

open Idealize.ShloMosaic Idealize.ShloMosaic.ValueIdx Cert.LibDenseLayers
open scoped BigOperators

variable {α : Type}

/-- The one row of a [1, N] matrix, as a vector of length N. -/
def rowOf {N : ℕ} (B : (⟨2, ![1, N]⟩ : Shape).Idx → α) : (⟨1, ![N]⟩ : Shape).Idx → α :=
  fun j => B (ix2 (0 : Fin 1) (j 0))

/-- The row at q is the matrix at (0, q). -/
theorem rowOf_ix1 {N : ℕ} (B : (⟨2, ![1, N]⟩ : Shape).Idx → α) (q : Fin N) : rowOf B (ix1 q) = B (ix2 (0 : Fin 1) q) := rfl

/-- A vector cast to a one-row matrix has that vector as its row. -/
theorem rowOf_shapeCast {N : ℕ} (b : (⟨1, ![N]⟩ : Shape).Idx → α) (hc : (⟨1, ![N]⟩ : Shape).ShapeCasts ⟨2, ![1, N]⟩) :
    rowOf (shapeCast ⟨2, ![1, N]⟩ b hc) = b := by
  funext j
  obtain ⟨q, rfl⟩ : ∃ q : Fin N, j = ix1 q := ⟨j 0, eq_ix1 j⟩
  exact shapeCast_a_1a_apply b hc 0 q

/-- A one-row matrix, cast to its own shape and laid along R rows, reads at (p, q) its row at q. -/
theorem bias_block {R N : ℕ} (B : (⟨2, ![1, N]⟩ : Shape).Idx → α) (hc : (⟨2, ![1, N]⟩ : Shape).ShapeCasts ⟨2, ![1, N]⟩)
    (hb : (⟨2, ![1, N]⟩ : Shape).Broadcasts ⟨2, ![R, N]⟩) (p : Fin R) (q : Fin N) :
    broadcastTo ⟨2, ![R, N]⟩ (shapeCast ⟨2, ![1, N]⟩ B hc) hb (ix2 p q) = B (ix2 (0 : Fin 1) q) := by
  rw [shapeCast_self]
  exact broadcastTo_1b_ab_apply B hb p q

/-- The matrix unit's product into a zero accumulator plus a one-row bias laid along the rows, read at (p, q): row p of
    h against column q of W, plus the bias row at q. -/
theorem affineAt_of_matmul_row {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨2, ![1, N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (B : FVec Ideal ⟨2, ![1, N]⟩ .f32)
    (p : Fin R) (q : Fin N) :
    matmul d none h W (constant (F := Ideal) ⟨2, ![R, N]⟩ .f32 0x00000000#32) (ix2 p q)
      + broadcastTo ⟨2, ![R, N]⟩ (shapeCast ⟨2, ![1, N]⟩ B hc) hb (ix2 p q) = affineAt h W (rowOf B) p q := by
  rw [Cert.LibMatmulRows.matmul_rows d hrank hsize hl0 hl1 hr0 hr1 h W p q, bias_block B hc hb p q]
  rfl

end Cert.LibRowBias

end
-- ==== Proof.DenseBodies.lean ====
/-
  The three kernel bodies are dense layers on a block of rows.

  Each body takes a block x of 5000 rows and 128 columns, a weight matrix W of 128 rows and 128 columns and a bias kept
  as a matrix B of ONE row and 128 columns. It forms the matrix product x · W into a zero accumulator, adds B laid along
  the 5000 rows, and (the first two bodies only) replaces each entry by the larger of it and zero. Read at row p and
  column q of the block, every body is the affine entry

      sum over k of x(p, k) * W(k, q)   +   B(0, q),

  rectified for the first two. The operands of the product are narrowed to a shorter float format first; on extended
  reals a change of format is no change, and a cast of a matrix to its own shape is no change either, so the three
  bodies differ only in the rectifier.
-/
import proofs.«111133_j412316860424_1_alg».proof.Proof.Gen.KernelIdeal
import proofs.«111133_j412316860424_1_alg».proof.Proof.Gen.KernelIdeal.Skeleton
import proofs.«111133_j412316860424_1_alg».proof.Proof.LibRowBias
import Idealize.ShloMosaic.Lib.Pipeline.Value
import Idealize.ShloMosaic.Lib.ValueIdx

noncomputable section

namespace Cert.KernelIdeal.Dense

open Cert.KernelIdeal Cert.KernelIdeal.Gen Idealize.ShloMosaic Idealize.ShloMosaic.ValueIdx
open Cert.LibDenseLayers Cert.LibRowBias

/-- The contraction every body performs: the columns of the block against the rows of the weight matrix. -/
abbrev contraction : DotDims S5000x128 S128x128 S5000x128 := dot_S5000x128_S128x128_S5000x128_1_0_0_1_n_n

/-- The left operand is read at the result's row. -/
theorem lhs_row (i : S5000x128.Idx) (s : contraction.contr.Idx) : (contraction.lhsIdx i s 0).val = (i 0).val := by
  unfold DotDims.lhsIdx
  rw [dif_neg (show ¬(0 : Fin S5000x128.rank) ∈ contraction.lhsBatch by decide),
    dif_pos (show (0 : Fin S5000x128.rank) ∈ contraction.lhsNonContracting by decide)]
  rfl

/-- The left operand is read at the contracted coordinate's column. -/
theorem lhs_col (i : S5000x128.Idx) (s : contraction.contr.Idx) :
    (contraction.lhsIdx i s 1).val = (s ⟨0, by decide⟩).val :=
  contraction.lhsIdx_val_of_single rfl i s

/-- The right operand is read at the contracted coordinate's row. -/
theorem rhs_row (i : S5000x128.Idx) (s : contraction.contr.Idx) :
    (contraction.rhsIdx i s 0).val = (s ⟨0, by decide⟩).val :=
  contraction.rhsIdx_val_of_single rfl i s

/-- The right operand is read at the result's column. -/
theorem rhs_col (i : S5000x128.Idx) (s : contraction.contr.Idx) : (contraction.rhsIdx i s 1).val = (i 1).val := by
  unfold DotDims.rhsIdx
  rw [dif_neg (show ¬(1 : Fin S128x128.rank) ∈ contraction.rhsBatch by decide),
    dif_pos (show (1 : Fin S128x128.rank) ∈ contraction.rhsNonContracting by decide)]
  rfl

/-- The product into zero plus the one-row bias laid along the rows, at (p, q): the affine entry. Stated for operands of
    any float format, so that it applies to the narrowed operands as they stand. -/
theorem affine_entry {φ₁ φ₂ : FTy} (x : FVec Ideal S5000x128 φ₁) (W : FVec Ideal S128x128 φ₂) (B : FVec Ideal S1x128 .f32)
    (p : Fin 5000) (q : Fin 128) :
    matmul contraction none x W (constant (F := Ideal) S5000x128 .f32 0x00000000#32) (ix2 p q)
      + broadcastTo S5000x128 (shapeCast S1x128 B shapeCasts_S1x128_S1x128) broadcasts_S1x128_S5000x128 (ix2 p q)
      = affineAt x W (rowOf B) p q :=
  affineAt_of_matmul_row contraction rfl rfl lhs_row lhs_col rhs_row rhs_col shapeCasts_S1x128_S1x128
    broadcasts_S1x128_S5000x128 x W B p q

/-- The first body at (p, q): the rectified affine entry of its block. -/
theorem first_body (x : Vec Ideal S5000x128 .f32) (W : Vec Ideal S128x128 .f32) (B : Vec Ideal S1x128 .f32)
    (p : Fin 5000) (q : Fin 128) :
    k0_pay1 (F := Ideal) x W B (ix2 p q) = stage1 x W (rowOf B) (ix2 p q) := by
  unfold k0_pay1
  exact congrArg (fun z => max z (Ideal.ofBits .f32 0x00000000#32))
    (affine_entry (truncf .bf16 x bitsLt_bf16_f32) (truncf .bf16 W bitsLt_bf16_f32) B p q)

/-- The second body at (p, q): the same rectified affine entry; its extra cast of the block to its own shape changes nothing. -/
theorem second_body (x : Vec Ideal S5000x128 .f32) (W : Vec Ideal S128x128 .f32) (B : Vec Ideal S1x128 .f32)
    (p : Fin 5000) (q : Fin 128) :
    k1_pay1 (F := Ideal) x W B (ix2 p q) = stage1 x W (rowOf B) (ix2 p q) := by
  unfold k1_pay1
  rw [shapeCast_self]
  exact congrArg (fun z => max z (Ideal.ofBits .f32 0x00000000#32))
    (affine_entry (truncf .bf16 x bitsLt_bf16_f32) (truncf .bf16 W bitsLt_bf16_f32) B p q)

/-- The third body at (p, q): the affine entry, not rectified; its casts of the block and of the weights to their own
    shapes change nothing. -/
theorem third_body (x : Vec Ideal S5000x128 .f32) (W : Vec Ideal S128x128 .f32) (B : Vec Ideal S1x128 .f32)
    (p : Fin 5000) (q : Fin 128) :
    k2_pay1 (F := Ideal) x W B (ix2 p q) = affine x W (rowOf B) (ix2 p q) := by
  unfold k2_pay1
  rw [shapeCast_self, shapeCast_self]
  exact affine_entry (truncf .bf16 x bitsLt_bf16_f32) (truncf .bf16 W bitsLt_bf16_f32) B p q

end Cert.KernelIdeal.Dense

end
-- ==== Proof.Layer0.lean ====
/-
  The first dense layer, from blocks of rows to the whole array.

  The first kernel region runs its body at ten grid points. At point t it is handed rows 5000·t … 5000·t + 4999 of the
  node features, the whole weight matrix and the whole one-row bias, and writes back rows 5000·t … 5000·t + 4999 of its
  output. Row p of a dense layer depends only on row p of its input, so what each point writes back is its block of
  rows of the rectified layer of the WHOLE feature array; the ten blocks tile the output, which therefore ends holding
  that layer. Stated for any buffer contents at the region's entry.
-/
import proofs.«111133_j412316860424_1_alg».proof.Proof.Gen.KernelIdeal.Frame
import proofs.«111133_j412316860424_1_alg».proof.Proof.DenseBodies
import Idealize.ShloMosaic.Lib.Pipeline.Value

noncomputable section

namespace Cert.KernelIdeal.Layer0

open Cert.KernelIdeal Cert.KernelIdeal.Gen Idealize.ShloMosaic Idealize.ShloMosaic.ValueIdx Idealize.ShloMosaic.TcCoe
open Idealize.SL.Sem
open Idealize.ShloMosaic.Pipeline (Dat Cfg Window)
open Cert.LibDenseLayers Cert.LibRowBias

/- The buffer contents when the region is entered: every statement below holds for any such contents. -/
variable (V : (c : Dev nD) → (b : Ref sig .tc) → Buf (Elt Ideal) ((c : Thread nD τ).loc b))

theorem origin : (![0, 0] : Fin 2 → Nat) = fun _ => 0 := funext fun a => by fin_cases a <;> rfl

/-- The block numbers at grid point t: the input rows and the output rows are block t of ten, of 5000 rows each; the
    weights and the bias are one block, the whole array. -/
theorem block_numbers : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 10 :=
  (by decide +kernel : ∀ t : Fin grid0.N, _)

/-- Row p of the input block at point t is row 5000·t + p of the input array. -/
theorem input_rows (c : Dev nD) (t : Fin cfg0.N) (p : Fin 5000) (k : Fin 128) (h : t.val * 5000 + p.val < 50000) :
    (iblk0 V c 0 t : S5000x128.Idx → EReal) (ix2 p k)
      = (V c main_arg0 : S50000x128.Idx → EReal) (ix2 (⟨t.val * 5000 + p.val, h⟩ : Fin 50000) k) := by
  obtain ⟨e0, e1, -⟩ := block_numbers t
  unfold iblk0
  rw [View.read_apply]
  show V c main_arg0 _ = V c main_arg0 _
  congr 1
  funext a
  apply Fin.ext
  match a with
  | ⟨0, _⟩ => show win0_0.index t 0 * 5000 + 1 * p.val = t.val * 5000 + p.val; rw [e0]; omega
  | ⟨1, _⟩ => show win0_0.index t 1 * 128 + 1 * k.val = k.val; rw [e1]; omega

/-- The weights' block at every point is the whole weight matrix. -/
theorem weights_whole (c : Dev nD) (t : Fin cfg0.N) :
    (iblk0 V c 1 t : S128x128.Idx → EReal) = (V c main_arg2 : S128x128.Idx → EReal) := by
  obtain ⟨-, -, e2, e3, -⟩ := block_numbers t
  funext y
  unfold iblk0
  rw [View.read_apply]
  show V c main_arg2 _ = V c main_arg2 _
  congr 1
  funext a
  apply Fin.ext
  match a with
  | ⟨0, _⟩ => show win0_1.index t 0 * 128 + 1 * (y 0).val = (y 0).val; rw [e2]; omega
  | ⟨1, _⟩ => show win0_1.index t 1 * 128 + 1 * (y 1).val = (y 1).val; rw [e3]; omega

/-- The bias's block at every point is the whole one-row bias. -/
theorem bias_whole (c : Dev nD) (t : Fin cfg0.N) :
    (iblk0 V c 2 t : S1x128.Idx → EReal) = (V c main_v4 : S1x128.Idx → EReal) := by
  obtain ⟨-, -, -, -, e4, e5, -⟩ := block_numbers t
  funext y
  unfold iblk0
  rw [View.read_apply]
  show V c main_v4 _ = V c main_v4 _
  congr 1
  funext a
  apply Fin.ext
  match a with
  | ⟨0, _⟩ => show win0_2.index t 0 * 1 + 1 * (y 0).val = (y 0).val; rw [e4]; omega
  | ⟨1, _⟩ => show win0_2.index t 1 * 128 + 1 * (y 1).val = (y 1).val; rw [e5]; omega

/-- The layer of the whole input array: what the output array is to hold. -/
abbrev whole (c : Dev nD) : S50000x128.Idx → EReal :=
  stage1 (V c main_arg0 : S50000x128.Idx → EReal) (V c main_arg2 : S128x128.Idx → EReal)
    (rowOf (V c main_v4 : S1x128.Idx → EReal))

/-- What point t writes back is block t of the layer of the whole input array: row p of the block's layer reads only
    row p of the block, which is row 5000·t + p of the array. -/
theorem written_back (c : Dev nD) (t : Fin cfg0.N) :
    (dat0 V c).flushed 3 t = ((cfg0.win 3).blk t).view.read (Elt Ideal) (whole V c) := by
  show (cfg0.win 3).cut (grid0.coords t) ((dat0 V c).after 3 t) = _
  rw [after0_3]
  unfold out0_3
  rw [View.canon_unit_zero origin]
  simp only [View.ld_unit_zero (S := S5000x128) origin, View.ld_unit_zero (S := S128x128) origin,
    View.ld_unit_zero (S := S1x128) origin]
  obtain ⟨-, -, -, -, -, -, e6, e7, e8⟩ := block_numbers t
  refine funext fun (j : S5000x128.Idx) => ?_
  obtain ⟨p, q, rfl⟩ : ∃ (p : Fin 5000) (q : Fin 128), j = ix2 p q := ⟨j 0, j 1, eq_ix2 j⟩
  have hrow : t.val * 5000 + p.val < 50000 := by have := p.isLt; omega
  have hemb : ((cfg0.win 3).blk t).view.emb (ix2 p q) = (ix2 (⟨t.val * 5000 + p.val, hrow⟩ : Fin 50000) q : S50000x128.Idx) := by
    funext a
    apply Fin.ext
    match a with
    | ⟨0, _⟩ => show win0_3.index t 0 * 5000 + 1 * p.val = t.val * 5000 + p.val; rw [e6]; omega
    | ⟨1, _⟩ => show win0_3.index t 1 * 128 + 1 * q.val = q.val; rw [e7]; omega
  show k0_pay1 (iblk0 V c 0 t) (iblk0 V c 1 t) (iblk0 V c 2 t) (ix2 p q)
    = whole V c (((cfg0.win 3).blk t).view.emb (ix2 p q))
  refine (Cert.KernelIdeal.Dense.first_body (iblk0 V c 0 t) (iblk0 V c 1 t) (iblk0 V c 2 t) p q).trans ?_
  rw [hemb, weights_whole V c t, bias_whole V c t]
  exact stage1_row _ _ _ _ p _ (fun k => input_rows V c t p k hrow) q

/-- An index of the output array is in point t's block iff each coordinate is in the block's range on its axis. -/
theorem in_block (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v5).slice (win0_3.rect t)).set ↔ _
  rw [View.set_slice_whole, Rect.mem_set_unit]
  exact Iff.rfl

/-- The ten blocks of 5000 rows tile the output array: row r is in block r / 5000. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, e6, e7, -⟩ := block_numbers t
  have ht : t.val = (i 0).val / 5000 := rfl
  refine ⟨t, flush0_3 t, ?_⟩
  rw [in_block]
  intro a
  match a with
  | ⟨0, _⟩ =>
    show win0_3.index t 0 * 5000 ≤ (i 0).val ∧ (i 0).val < win0_3.index t 0 * 5000 + 5000
    rw [e6, ht]; omega
  | ⟨1, _⟩ =>
    show win0_3.index t 1 * 128 ≤ (i 1).val ∧ (i 1).val < win0_3.index t 1 * 128 + 128
    rw [e7]; omega

/-- After the region the output array holds the layer of the whole input array as the region found it. -/
theorem result (c : Dev nD) : (dat0 V c).arrAt 3 cfg0.N = whole V c :=
  (dat0 V c).arrAt_eq_of_cover 3 (whole V c) (fun t _ => written_back V c t) (covered)

end Cert.KernelIdeal.Layer0

end
-- ==== Proof.Layer1.lean ====
/-
  The second dense layer, from blocks of rows to the whole array.

  The second kernel region runs its body at ten grid points. At point t it is handed rows 5000·t … 5000·t + 4999 of the
  aggregated node features, the whole weight matrix and the whole one-row bias, and writes back rows 5000·t … 5000·t + 4999
  of its output. Row p of a dense layer depends only on row p of its input, so what each point writes back is its block
  of rows of the rectified layer of the WHOLE input array; the ten blocks tile the output, which therefore ends holding
  that layer. Stated for any buffer contents at the region's entry.
-/
import proofs.«111133_j412316860424_1_alg».proof.Proof.Gen.KernelIdeal.Frame
import proofs.«111133_j412316860424_1_alg».proof.Proof.DenseBodies
import Idealize.ShloMosaic.Lib.Pipeline.Value

noncomputable section

namespace Cert.KernelIdeal.Layer1

open Cert.KernelIdeal Cert.KernelIdeal.Gen Idealize.ShloMosaic Idealize.ShloMosaic.ValueIdx Idealize.ShloMosaic.TcCoe
open Idealize.SL.Sem
open Idealize.ShloMosaic.Pipeline (Dat Cfg Window)
open Cert.LibDenseLayers Cert.LibRowBias

/- The buffer contents when the region is entered: every statement below holds for any such contents. -/
variable (V : (c : Dev nD) → (b : Ref sig .tc) → Buf (Elt Ideal) ((c : Thread nD τ).loc b))

theorem origin : (![0, 0] : Fin 2 → Nat) = fun _ => 0 := funext fun a => by fin_cases a <;> rfl

/-- The block numbers at grid point t: the input rows and the output rows are block t of ten, of 5000 rows each; the
    weights and the bias are one block, the whole array. -/
theorem block_numbers : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- Row p of the input block at point t is row 5000·t + p of the input array. -/
theorem input_rows (c : Dev nD) (t : Fin cfg1.N) (p : Fin 5000) (k : Fin 128) (h : t.val * 5000 + p.val < 50000) :
    (iblk1 V c 0 t : S5000x128.Idx → EReal) (ix2 p k)
      = (V c main_v15 : S50000x128.Idx → EReal) (ix2 (⟨t.val * 5000 + p.val, h⟩ : Fin 50000) k) := by
  obtain ⟨e0, e1, -⟩ := block_numbers t
  unfold iblk1
  rw [View.read_apply]
  show V c main_v15 _ = V c main_v15 _
  congr 1
  funext a
  apply Fin.ext
  match a with
  | ⟨0, _⟩ => show win1_0.index t 0 * 5000 + 1 * p.val = t.val * 5000 + p.val; rw [e0]; omega
  | ⟨1, _⟩ => show win1_0.index t 1 * 128 + 1 * k.val = k.val; rw [e1]; omega

/-- The weights' block at every point is the whole weight matrix. -/
theorem weights_whole (c : Dev nD) (t : Fin cfg1.N) :
    (iblk1 V c 1 t : S128x128.Idx → EReal) = (V c main_arg4 : S128x128.Idx → EReal) := by
  obtain ⟨-, -, e2, e3, -⟩ := block_numbers t
  funext y
  unfold iblk1
  rw [View.read_apply]
  show V c main_arg4 _ = V c main_arg4 _
  congr 1
  funext a
  apply Fin.ext
  match a with
  | ⟨0, _⟩ => show win1_1.index t 0 * 128 + 1 * (y 0).val = (y 0).val; rw [e2]; omega
  | ⟨1, _⟩ => show win1_1.index t 1 * 128 + 1 * (y 1).val = (y 1).val; rw [e3]; omega

/-- The bias's block at every point is the whole one-row bias. -/
theorem bias_whole (c : Dev nD) (t : Fin cfg1.N) :
    (iblk1 V c 2 t : S1x128.Idx → EReal) = (V c main_v16 : S1x128.Idx → EReal) := by
  obtain ⟨-, -, -, -, e4, e5, -⟩ := block_numbers t
  funext y
  unfold iblk1
  rw [View.read_apply]
  show V c main_v16 _ = V c main_v16 _
  congr 1
  funext a
  apply Fin.ext
  match a with
  | ⟨0, _⟩ => show win1_2.index t 0 * 1 + 1 * (y 0).val = (y 0).val; rw [e4]; omega
  | ⟨1, _⟩ => show win1_2.index t 1 * 128 + 1 * (y 1).val = (y 1).val; rw [e5]; omega

/-- The layer of the whole input array: what the output array is to hold. -/
abbrev whole (c : Dev nD) : S50000x128.Idx → EReal :=
  stage1 (V c main_v15 : S50000x128.Idx → EReal) (V c main_arg4 : S128x128.Idx → EReal)
    (rowOf (V c main_v16 : S1x128.Idx → EReal))

/-- What point t writes back is block t of the layer of the whole input array: row p of the block's layer reads only
    row p of the block, which is row 5000·t + p of the array. -/
theorem written_back (c : Dev nD) (t : Fin cfg1.N) :
    (dat1 V c).flushed 3 t = ((cfg1.win 3).blk t).view.read (Elt Ideal) (whole V c) := by
  show (cfg1.win 3).cut (grid1.coords t) ((dat1 V c).after 3 t) = _
  rw [after1_3]
  unfold out1_3
  rw [View.canon_unit_zero origin]
  simp only [View.ld_unit_zero (S := S5000x128) origin, View.ld_unit_zero (S := S128x128) origin,
    View.ld_unit_zero (S := S1x128) origin]
  obtain ⟨-, -, -, -, -, -, e6, e7, e8⟩ := block_numbers t
  refine funext fun (j : S5000x128.Idx) => ?_
  obtain ⟨p, q, rfl⟩ : ∃ (p : Fin 5000) (q : Fin 128), j = ix2 p q := ⟨j 0, j 1, eq_ix2 j⟩
  have hrow : t.val * 5000 + p.val < 50000 := by have := p.isLt; omega
  have hemb : ((cfg1.win 3).blk t).view.emb (ix2 p q) = (ix2 (⟨t.val * 5000 + p.val, hrow⟩ : Fin 50000) q : S50000x128.Idx) := by
    funext a
    apply Fin.ext
    match a with
    | ⟨0, _⟩ => show win1_3.index t 0 * 5000 + 1 * p.val = t.val * 5000 + p.val; rw [e6]; omega
    | ⟨1, _⟩ => show win1_3.index t 1 * 128 + 1 * q.val = q.val; rw [e7]; omega
  show k1_pay1 (iblk1 V c 0 t) (iblk1 V c 1 t) (iblk1 V c 2 t) (ix2 p q)
    = whole V c (((cfg1.win 3).blk t).view.emb (ix2 p q))
  refine (Cert.KernelIdeal.Dense.second_body (iblk1 V c 0 t) (iblk1 V c 1 t) (iblk1 V c 2 t) p q).trans ?_
  rw [hemb, weights_whole V c t, bias_whole V c t]
  exact stage1_row _ _ _ _ p _ (fun k => input_rows V c t p k hrow) q

/-- An index of the output array is in point t's block iff each coordinate is in the block's range on its axis. -/
theorem in_block (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v17).slice (win1_3.rect t)).set ↔ _
  rw [View.set_slice_whole, Rect.mem_set_unit]
  exact Iff.rfl

/-- The ten blocks of 5000 rows tile the output array: row r is in block r / 5000. -/
theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, e6, e7, -⟩ := block_numbers t
  have ht : t.val = (i 0).val / 5000 := rfl
  refine ⟨t, flush1_3 t, ?_⟩
  rw [in_block]
  intro a
  match a with
  | ⟨0, _⟩ =>
    show win1_3.index t 0 * 5000 ≤ (i 0).val ∧ (i 0).val < win1_3.index t 0 * 5000 + 5000
    rw [e6, ht]; omega
  | ⟨1, _⟩ =>
    show win1_3.index t 1 * 128 ≤ (i 1).val ∧ (i 1).val < win1_3.index t 1 * 128 + 128
    rw [e7]; omega

/-- After the region the output array holds the layer of the whole input array as the region found it. -/
theorem result (c : Dev nD) : (dat1 V c).arrAt 3 cfg1.N = whole V c :=
  (dat1 V c).arrAt_eq_of_cover 3 (whole V c) (fun t _ => written_back V c t) (covered)

end Cert.KernelIdeal.Layer1

end
-- ==== Proof.Layer2.lean ====
/-
  The final projection layer, from blocks of rows to the whole array.

  The third kernel region runs its body at ten grid points. At point t it is handed rows 5000·t … 5000·t + 4999 of the
  twice-aggregated node features, the whole (zero-padded) weight matrix and the whole (zero-padded) one-row bias, and
  writes back rows 5000·t … 5000·t + 4999 of its output. Row p of an affine layer depends only on row p of its input, so
  what each point writes back is its block of rows of the affine layer of the WHOLE input array; the ten blocks tile
  the output, which therefore ends holding that layer. No rectifier here. Stated for any buffer contents at the
  region's entry.
-/
import proofs.«111133_j412316860424_1_alg».proof.Proof.Gen.KernelIdeal.Frame
import proofs.«111133_j412316860424_1_alg».proof.Proof.DenseBodies
import Idealize.ShloMosaic.Lib.Pipeline.Value

noncomputable section

namespace Cert.KernelIdeal.Layer2

open Cert.KernelIdeal Cert.KernelIdeal.Gen Idealize.ShloMosaic Idealize.ShloMosaic.ValueIdx Idealize.ShloMosaic.TcCoe
open Idealize.SL.Sem
open Idealize.ShloMosaic.Pipeline (Dat Cfg Window)
open Cert.LibDenseLayers Cert.LibRowBias

/- The buffer contents when the region is entered: every statement below holds for any such contents. -/
variable (V : (c : Dev nD) → (b : Ref sig .tc) → Buf (Elt Ideal) ((c : Thread nD τ).loc b))

theorem origin : (![0, 0] : Fin 2 → Nat) = fun _ => 0 := funext fun a => by fin_cases a <;> rfl

/-- The block numbers at grid point t: the input rows and the output rows are block t of ten, of 5000 rows each; the
    weights and the bias are one block, the whole array. -/
theorem block_numbers : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 10 :=
  (by decide +kernel : ∀ t : Fin grid2.N, _)

/-- Row p of the input block at point t is row 5000·t + p of the input array. -/
theorem input_rows (c : Dev nD) (t : Fin cfg2.N) (p : Fin 5000) (k : Fin 128) (h : t.val * 5000 + p.val < 50000) :
    (iblk2 V c 0 t : S5000x128.Idx → EReal) (ix2 p k)
      = (V c main_v27 : S50000x128.Idx → EReal) (ix2 (⟨t.val * 5000 + p.val, h⟩ : Fin 50000) k) := by
  obtain ⟨e0, e1, -⟩ := block_numbers t
  unfold iblk2
  rw [View.read_apply]
  show V c main_v27 _ = V c main_v27 _
  congr 1
  funext a
  apply Fin.ext
  match a with
  | ⟨0, _⟩ => show win2_0.index t 0 * 5000 + 1 * p.val = t.val * 5000 + p.val; rw [e0]; omega
  | ⟨1, _⟩ => show win2_0.index t 1 * 128 + 1 * k.val = k.val; rw [e1]; omega

/-- The weights' block at every point is the whole weight matrix. -/
theorem weights_whole (c : Dev nD) (t : Fin cfg2.N) :
    (iblk2 V c 1 t : S128x128.Idx → EReal) = (V c main_v28 : S128x128.Idx → EReal) := by
  obtain ⟨-, -, e2, e3, -⟩ := block_numbers t
  funext y
  unfold iblk2
  rw [View.read_apply]
  show V c main_v28 _ = V c main_v28 _
  congr 1
  funext a
  apply Fin.ext
  match a with
  | ⟨0, _⟩ => show win2_1.index t 0 * 128 + 1 * (y 0).val = (y 0).val; rw [e2]; omega
  | ⟨1, _⟩ => show win2_1.index t 1 * 128 + 1 * (y 1).val = (y 1).val; rw [e3]; omega

/-- The bias's block at every point is the whole one-row bias. -/
theorem bias_whole (c : Dev nD) (t : Fin cfg2.N) :
    (iblk2 V c 2 t : S1x128.Idx → EReal) = (V c main_v30 : S1x128.Idx → EReal) := by
  obtain ⟨-, -, -, -, e4, e5, -⟩ := block_numbers t
  funext y
  unfold iblk2
  rw [View.read_apply]
  show V c main_v30 _ = V c main_v30 _
  congr 1
  funext a
  apply Fin.ext
  match a with
  | ⟨0, _⟩ => show win2_2.index t 0 * 1 + 1 * (y 0).val = (y 0).val; rw [e4]; omega
  | ⟨1, _⟩ => show win2_2.index t 1 * 128 + 1 * (y 1).val = (y 1).val; rw [e5]; omega

/-- The layer of the whole input array: what the output array is to hold. -/
abbrev whole (c : Dev nD) : S50000x128.Idx → EReal :=
  affine (V c main_v27 : S50000x128.Idx → EReal) (V c main_v28 : S128x128.Idx → EReal)
    (rowOf (V c main_v30 : S1x128.Idx → EReal))

/-- What point t writes back is block t of the layer of the whole input array: row p of the block's layer reads only
    row p of the block, which is row 5000·t + p of the array. -/
theorem written_back (c : Dev nD) (t : Fin cfg2.N) :
    (dat2 V c).flushed 3 t = ((cfg2.win 3).blk t).view.read (Elt Ideal) (whole V c) := by
  show (cfg2.win 3).cut (grid2.coords t) ((dat2 V c).after 3 t) = _
  rw [after2_3]
  unfold out2_3
  rw [View.canon_unit_zero origin]
  simp only [View.ld_unit_zero (S := S5000x128) origin, View.ld_unit_zero (S := S128x128) origin,
    View.ld_unit_zero (S := S1x128) origin]
  obtain ⟨-, -, -, -, -, -, e6, e7, e8⟩ := block_numbers t
  refine funext fun (j : S5000x128.Idx) => ?_
  obtain ⟨p, q, rfl⟩ : ∃ (p : Fin 5000) (q : Fin 128), j = ix2 p q := ⟨j 0, j 1, eq_ix2 j⟩
  have hrow : t.val * 5000 + p.val < 50000 := by have := p.isLt; omega
  have hemb : ((cfg2.win 3).blk t).view.emb (ix2 p q) = (ix2 (⟨t.val * 5000 + p.val, hrow⟩ : Fin 50000) q : S50000x128.Idx) := by
    funext a
    apply Fin.ext
    match a with
    | ⟨0, _⟩ => show win2_3.index t 0 * 5000 + 1 * p.val = t.val * 5000 + p.val; rw [e6]; omega
    | ⟨1, _⟩ => show win2_3.index t 1 * 128 + 1 * q.val = q.val; rw [e7]; omega
  show k2_pay1 (iblk2 V c 0 t) (iblk2 V c 1 t) (iblk2 V c 2 t) (ix2 p q)
    = whole V c (((cfg2.win 3).blk t).view.emb (ix2 p q))
  refine (Cert.KernelIdeal.Dense.third_body (iblk2 V c 0 t) (iblk2 V c 1 t) (iblk2 V c 2 t) p q).trans ?_
  rw [hemb, weights_whole V c t, bias_whole V c t]
  exact affineAt_congr _ _ _ _ p _ (fun k => input_rows V c t p k hrow) q

/-- An index of the output array is in point t's block iff each coordinate is in the block's range on its axis. -/
theorem in_block (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v31).slice (win2_3.rect t)).set ↔ _
  rw [View.set_slice_whole, Rect.mem_set_unit]
  exact Iff.rfl

/-- The ten blocks of 5000 rows tile the output array: row r is in block r / 5000. -/
theorem covered (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, -, -, e6, e7, -⟩ := block_numbers t
  have ht : t.val = (i 0).val / 5000 := rfl
  refine ⟨t, flush2_3 t, ?_⟩
  rw [in_block]
  intro a
  match a with
  | ⟨0, _⟩ =>
    show win2_3.index t 0 * 5000 ≤ (i 0).val ∧ (i 0).val < win2_3.index t 0 * 5000 + 5000
    rw [e6, ht]; omega
  | ⟨1, _⟩ =>
    show win2_3.index t 1 * 128 ≤ (i 1).val ∧ (i 1).val < win2_3.index t 1 * 128 + 128
    rw [e7]; omega

/-- After the region the output array holds the layer of the whole input array as the region found it. -/
theorem result (c : Dev nD) : (dat2 V c).arrAt 3 cfg2.N = whole V c :=
  (dat2 V c).arrAt_eq_of_cover 3 (whole V c) (fun t _ => written_back V c t) (covered)

end Cert.KernelIdeal.Layer2

end
-- ==== Proof.Stretches.lean ====
/-
  The host operations between the kernel regions, each stretch read as a function of the buffer contents before it.

  Three chains of operations are named and never opened, because the reference program applies the very same chains:
  * the two rows of the edge list as vectors of 800000 node numbers (the sources and the targets of the edges);
  * AGGREGATION: a table of source rows is made from the source numbers (a negative number n is first replaced by
    n + 50000), the rows of a [50000, 128] array z are gathered by it into 800000 message rows, and the message rows are
    added into a zero [50000, 128] array at the rows the target numbers name — aggregate z s d;
  * the final layer's operands: the [128, 1] weight column followed by 127 padding columns, and the length-1 bias
    followed by 127 padding entries and laid out as one row.
  A stretch leaves every buffer it does not write as it found it.
-/
import proofs.«111133_j412316860424_1_alg».proof.Proof.Gen.KernelIdeal.Launch
import Idealize.ShloMosaic.Lib.StableHlo.Run

noncomputable section

namespace Cert.KernelIdeal.Stretch

open Cert.KernelIdeal Cert.KernelIdeal.Gen Idealize.ShloMosaic Idealize.ShloMosaic.TcCoe Idealize.SL.Sem
open Idealize.ShloMosaic.StableHlo

variable {F : FTy → Type} [FloatOps F]

/-- The edges' source node numbers: row 0 of the edge list as a vector. -/
def sources (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- The edges' target node numbers: row 1 of the edge list as a vector. -/
def targets (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- Aggregation: the rows of z the sources name, added into a zero array at the rows the targets name. -/
def aggregate (z : (⟨S50000x128, .f32⟩ : BufTy).Contents (Elt F)) (s d : (⟨S800000, .i32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 d)
    (Host.gather gather_S50000x128_S800000x1_S800000x128_1_0_n_n_0_1_1128 z
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- A bias vector laid out as one row. -/
def biasRow (b : (⟨S128, .f32⟩ : BufTy).Contents (Elt F)) : (⟨S1x128, .f32⟩ : BufTy).Contents (Elt F) := shapeCast S1x128 b shapeCasts_S128_S1x128

/-- The final layer's weight column followed by 127 padding columns. -/
def paddedWeights (w : (⟨S128x1, .f32⟩ : BufTy).Contents (Elt F)) : (⟨S128x128, .f32⟩ : BufTy).Contents (Elt F) :=
  pad S128x128 ![0, 0] ![0, 127] ![0, 0] w (sitofp .f32 (constantI S_ 32 0#32) : (⟨S_, .f32⟩ : BufTy).Contents (Elt F))
    pads_S128x1_S128x128_000_01270 h_S_

/-- The final layer's bias followed by 127 padding entries, laid out as one row. -/
def paddedBias (b : (⟨S1, .f32⟩ : BufTy).Contents (Elt F)) : (⟨S1x128, .f32⟩ : BufTy).Contents (Elt F) :=
  biasRow (pad S128 ![0] ![127] ![0] b (sitofp .f32 (constantI S_ 32 0#32) : (⟨S_, .f32⟩ : BufTy).Contents (Elt F)) pads_S1_S128_01270 h_S_)

/-! ## Before the first region -/

theorem first_sources (W : Valuation τ sig (Elt F)) :
    StableHlo.after hostOps0 W (Proc.devRef .tc main_v1) = sources (F := F) (W (Proc.devRef .tc main_arg1)) := by
  after_results
  rfl

theorem first_targets (W : Valuation τ sig (Elt F)) :
    StableHlo.after hostOps0 W (Proc.devRef .tc main_v3) = targets (F := F) (W (Proc.devRef .tc main_arg1)) := by
  after_results
  rfl

theorem first_bias (W : Valuation τ sig (Elt F)) :
    StableHlo.after hostOps0 W (Proc.devRef .tc main_v4) = biasRow (F := F) (W (Proc.devRef .tc main_arg3)) := by
  after_results
  rfl

theorem first_keeps_arg0 (W : Valuation τ sig (Elt F)) :
    StableHlo.after hostOps0 W (Proc.devRef .tc main_arg0) = W (Proc.devRef .tc main_arg0) := by
  after_results

theorem first_keeps_arg2 (W : Valuation τ sig (Elt F)) :
    StableHlo.after hostOps0 W (Proc.devRef .tc main_arg2) = W (Proc.devRef .tc main_arg2) := by
  after_results

theorem first_keeps_arg4 (W : Valuation τ sig (Elt F)) :
    StableHlo.after hostOps0 W (Proc.devRef .tc main_arg4) = W (Proc.devRef .tc main_arg4) := by
  after_results

theorem first_keeps_arg5 (W : Valuation τ sig (Elt F)) :
    StableHlo.after hostOps0 W (Proc.devRef .tc main_arg5) = W (Proc.devRef .tc main_arg5) := by
  after_results

theorem first_keeps_arg6 (W : Valuation τ sig (Elt F)) :
    StableHlo.after hostOps0 W (Proc.devRef .tc main_arg6) = W (Proc.devRef .tc main_arg6) := by
  after_results

theorem first_keeps_arg7 (W : Valuation τ sig (Elt F)) :
    StableHlo.after hostOps0 W (Proc.devRef .tc main_arg7) = W (Proc.devRef .tc main_arg7) := by
  after_results

/-! ## Between the first and the second region -/

theorem second_input (W : Valuation τ sig (Elt F)) :
    StableHlo.after hostOps1 W (Proc.devRef .tc main_v15)
      = aggregate (F := F) (W (Proc.devRef .tc main_v5)) (W (Proc.devRef .tc main_v1)) (W (Proc.devRef .tc main_v3)) := by
  after_results
  rfl

theorem second_bias (W : Valuation τ sig (Elt F)) :
    StableHlo.after hostOps1 W (Proc.devRef .tc main_v16) = biasRow (F := F) (W (Proc.devRef .tc main_arg5)) := by
  after_results
  rfl

theorem second_keeps_v1 (W : Valuation τ sig (Elt F)) :
    StableHlo.after hostOps1 W (Proc.devRef .tc main_v1) = W (Proc.devRef .tc main_v1) := by
  after_results

theorem second_keeps_v3 (W : Valuation τ sig (Elt F)) :
    StableHlo.after hostOps1 W (Proc.devRef .tc main_v3) = W (Proc.devRef .tc main_v3) := by
  after_results

theorem second_keeps_arg4 (W : Valuation τ sig (Elt F)) :
    StableHlo.after hostOps1 W (Proc.devRef .tc main_arg4) = W (Proc.devRef .tc main_arg4) := by
  after_results

theorem second_keeps_arg6 (W : Valuation τ sig (Elt F)) :
    StableHlo.after hostOps1 W (Proc.devRef .tc main_arg6) = W (Proc.devRef .tc main_arg6) := by
  after_results

theorem second_keeps_arg7 (W : Valuation τ sig (Elt F)) :
    StableHlo.after hostOps1 W (Proc.devRef .tc main_arg7) = W (Proc.devRef .tc main_arg7) := by
  after_results

/-! ## Between the second and the third region (five stretches: the aggregation, and the two paddings with their constants) -/

theorem third_input (W : Valuation τ sig (Elt F)) :
    StableHlo.after hostOps2_4 (StableHlo.after hostOps2_3 (StableHlo.after hostOps2_2 (StableHlo.after hostOps2_1 (StableHlo.after hostOps2 W)))) (Proc.devRef .tc main_v27)
      = aggregate (F := F) (W (Proc.devRef .tc main_v17)) (W (Proc.devRef .tc main_v1)) (W (Proc.devRef .tc main_v3)) := by
  after_results
  rfl

theorem third_weights (W : Valuation τ sig (Elt F)) :
    StableHlo.after hostOps2_4 (StableHlo.after hostOps2_3 (StableHlo.after hostOps2_2 (StableHlo.after hostOps2_1 (StableHlo.after hostOps2 W)))) (Proc.devRef .tc main_v28)
      = paddedWeights (F := F) (W (Proc.devRef .tc main_arg6)) := by
  after_results
  rfl

theorem third_bias (W : Valuation τ sig (Elt F)) :
    StableHlo.after hostOps2_4 (StableHlo.after hostOps2_3 (StableHlo.after hostOps2_2 (StableHlo.after hostOps2_1 (StableHlo.after hostOps2 W)))) (Proc.devRef .tc main_v30)
      = paddedBias (F := F) (W (Proc.devRef .tc main_arg7)) := by
  after_results
  rfl

/-! ## After the third region -/

theorem result_column (W : Valuation τ sig (Elt F)) :
    StableHlo.after hostOps3 W (Proc.devRef .tc main_v32)
      = extractStridedSlice S50000x1 ![0, 0] (W (Proc.devRef .tc main_v31)) slices_S50000x128_S50000x1_0_0 := by
  after_results

end Cert.KernelIdeal.Stretch

end
-- ==== Proof.KernelValue.lean ====
/-
  What the kernel program's result buffer holds, as one function of the eight argument arrays.

  Write x for the node features, s and d for the edges' source and target numbers, (W1, b1), (W2, b2) for the two
  message-passing layers and (w, b) for the final projection. Walking the buffer contents from the launch to the return:

    before region 1:  s, d and b1 laid out as one row are computed; the arguments are as launched;
    region 1 leaves   Z1 = rectified (x · W1 + b1)                 (the first dense layer of ALL node rows);
    then              H1 = aggregate Z1 s d                        (gather the sources' rows, add at the targets);
    region 2 leaves   Z2 = rectified (H1 · W2 + b2);
    then              H2 = aggregate Z2 s d, and the padded weight column and padded bias row are computed;
    region 3 leaves   Y  = H2 · (w | padding) + (b | padding);
    the return        is column 0 of Y.

  Each line is one boundary of the run's fold: a stretch of host operations is read by the stretch lemmas, a region by
  its whole-array result, and every buffer neither writes is carried along unchanged.
-/
import proofs.«111133_j412316860424_1_alg».proof.Proof.Gen.KernelIdeal.Frame
import proofs.«111133_j412316860424_1_alg».proof.Proof.Layer0
import proofs.«111133_j412316860424_1_alg».proof.Proof.Layer1
import proofs.«111133_j412316860424_1_alg».proof.Proof.Layer2
import proofs.«111133_j412316860424_1_alg».proof.Proof.Stretches

noncomputable section

namespace Cert.KernelIdeal.Value

open Cert.KernelIdeal Cert.KernelIdeal.Gen Idealize.ShloMosaic Idealize.ShloMosaic.TcCoe Idealize.SL.Sem
open Cert.KernelIdeal.Stretch Cert.LibDenseLayers Cert.LibRowBias

/-- The first layer's output on all node rows. -/
def hidden1 (x : S50000x128.Idx → EReal) (W1 : S128x128.Idx → EReal) (b1 : S128.Idx → EReal) : S50000x128.Idx → EReal :=
  stage1 x W1 (rowOf (biasRow (F := Ideal) b1))

/-- The second layer's output on all node rows. -/
def hidden2 (x : S50000x128.Idx → EReal) (ei : IVec S2x800000 32) (W1 : S128x128.Idx → EReal) (b1 : S128.Idx → EReal)
    (W2 : S128x128.Idx → EReal) (b2 : S128.Idx → EReal) : S50000x128.Idx → EReal :=
  stage1 (aggregate (F := Ideal) (hidden1 x W1 b1) (sources (F := Ideal) ei) (targets (F := Ideal) ei)) W2
    (rowOf (biasRow (F := Ideal) b2))

/-- The program's result: column 0 of the padded final layer of the twice-aggregated features. -/
def out (x : S50000x128.Idx → EReal) (ei : IVec S2x800000 32) (W1 : S128x128.Idx → EReal) (b1 : S128.Idx → EReal)
    (W2 : S128x128.Idx → EReal) (b2 : S128.Idx → EReal) (w : S128x1.Idx → EReal) (b : S1.Idx → EReal) : S50000x1.Idx → EReal :=
  extractStridedSlice S50000x1 ![0, 0]
    (affine (aggregate (F := Ideal) (hidden2 x ei W1 b1 W2 b2) (sources (F := Ideal) ei) (targets (F := Ideal) ei))
      (paddedWeights (F := Ideal) w) (rowOf (paddedBias (F := Ideal) b)))
    slices_S50000x128_S50000x1_0_0

variable (m : (ℓ : Loc nD τ sig) → Buf (Elt Ideal) ℓ) (ρ : Dev nD → PrngReg) (c : Dev nD)

/-! ## When the first region is entered -/

theorem entry1 :
    W1 m ρ c (Proc.devRef .tc main_v1) = sources (F := Ideal) (m ((c.tc : Thread nD τ).loc main_arg1))
    ∧ W1 m ρ c (Proc.devRef .tc main_v3) = targets (F := Ideal) (m ((c.tc : Thread nD τ).loc main_arg1))
    ∧ W1 m ρ c (Proc.devRef .tc main_v4) = biasRow (F := Ideal) (m ((c.tc : Thread nD τ).loc main_arg3))
    ∧ W1 m ρ c (Proc.devRef .tc main_arg0) = m ((c.tc : Thread nD τ).loc main_arg0)
    ∧ W1 m ρ c (Proc.devRef .tc main_arg2) = m ((c.tc : Thread nD τ).loc main_arg2)
    ∧ W1 m ρ c (Proc.devRef .tc main_arg4) = m ((c.tc : Thread nD τ).loc main_arg4)
    ∧ W1 m ρ c (Proc.devRef .tc main_arg5) = m ((c.tc : Thread nD τ).loc main_arg5)
    ∧ W1 m ρ c (Proc.devRef .tc main_arg6) = m ((c.tc : Thread nD τ).loc main_arg6)
    ∧ W1 m ρ c (Proc.devRef .tc main_arg7) = m ((c.tc : Thread nD τ).loc main_arg7) :=
  ⟨first_sources (W0 m ρ c), first_targets (W0 m ρ c), first_bias (W0 m ρ c), first_keeps_arg0 (W0 m ρ c),
    first_keeps_arg2 (W0 m ρ c), first_keeps_arg4 (W0 m ρ c), first_keeps_arg5 (W0 m ρ c), first_keeps_arg6 (W0 m ρ c),
    first_keeps_arg7 (W0 m ρ c)⟩

/-! ## When the first region is left -/

theorem exit1 :
    W2 m ρ c (Proc.devRef .tc main_v5) = hidden1 (m ((c.tc : Thread nD τ).loc main_arg0)) (m ((c.tc : Thread nD τ).loc main_arg2)) (m ((c.tc : Thread nD τ).loc main_arg3))
    ∧ W2 m ρ c (Proc.devRef .tc main_v1) = sources (F := Ideal) (m ((c.tc : Thread nD τ).loc main_arg1))
    ∧ W2 m ρ c (Proc.devRef .tc main_v3) = targets (F := Ideal) (m ((c.tc : Thread nD τ).loc main_arg1))
    ∧ W2 m ρ c (Proc.devRef .tc main_arg4) = m ((c.tc : Thread nD τ).loc main_arg4)
    ∧ W2 m ρ c (Proc.devRef .tc main_arg5) = m ((c.tc : Thread nD τ).loc main_arg5)
    ∧ W2 m ρ c (Proc.devRef .tc main_arg6) = m ((c.tc : Thread nD τ).loc main_arg6)
    ∧ W2 m ρ c (Proc.devRef .tc main_arg7) = m ((c.tc : Thread nD τ).loc main_arg7) := by
  obtain ⟨e1, e3, e4, a0, a2, a4, a5, a6, a7⟩ := entry1 m ρ c
  refine ⟨?_, (W2_of_ne m ρ c main_v1 (by decide)).trans e1, (W2_of_ne m ρ c main_v3 (by decide)).trans e3,
    (W2_of_ne m ρ c main_arg4 (by decide)).trans a4, (W2_of_ne m ρ c main_arg5 (by decide)).trans a5,
    (W2_of_ne m ρ c main_arg6 (by decide)).trans a6, (W2_of_ne m ρ c main_arg7 (by decide)).trans a7⟩
  refine (W2_arr m ρ c 3).trans ((Cert.KernelIdeal.Layer0.result (V1 m ρ) c).trans ?_)
  show stage1 (W1 m ρ c (Proc.devRef .tc main_arg0)) (W1 m ρ c (Proc.devRef .tc main_arg2)) (rowOf (W1 m ρ c (Proc.devRef .tc main_v4))) = _
  rw [a0, a2, e4]
  rfl

/-! ## When the second region is entered -/

theorem entry2 :
    W3 m ρ c (Proc.devRef .tc main_v15) = aggregate (F := Ideal) (hidden1 (m ((c.tc : Thread nD τ).loc main_arg0)) (m ((c.tc : Thread nD τ).loc main_arg2)) (m ((c.tc : Thread nD τ).loc main_arg3)))
        (sources (F := Ideal) (m ((c.tc : Thread nD τ).loc main_arg1))) (targets (F := Ideal) (m ((c.tc : Thread nD τ).loc main_arg1)))
    ∧ W3 m ρ c (Proc.devRef .tc main_v16) = biasRow (F := Ideal) (m ((c.tc : Thread nD τ).loc main_arg5))
    ∧ W3 m ρ c (Proc.devRef .tc main_arg4) = m ((c.tc : Thread nD τ).loc main_arg4)
    ∧ W3 m ρ c (Proc.devRef .tc main_v1) = sources (F := Ideal) (m ((c.tc : Thread nD τ).loc main_arg1))
    ∧ W3 m ρ c (Proc.devRef .tc main_v3) = targets (F := Ideal) (m ((c.tc : Thread nD τ).loc main_arg1))
    ∧ W3 m ρ c (Proc.devRef .tc main_arg6) = m ((c.tc : Thread nD τ).loc main_arg6)
    ∧ W3 m ρ c (Proc.devRef .tc main_arg7) = m ((c.tc : Thread nD τ).loc main_arg7) := by
  obtain ⟨z1, e1, e3, a4, a5, a6, a7⟩ := exit1 m ρ c
  refine ⟨(second_input (W2 m ρ c)).trans ?_, (second_bias (W2 m ρ c)).trans ?_, (second_keeps_arg4 (W2 m ρ c)).trans a4,
    (second_keeps_v1 (W2 m ρ c)).trans e1, (second_keeps_v3 (W2 m ρ c)).trans e3, (second_keeps_arg6 (W2 m ρ c)).trans a6,
    (second_keeps_arg7 (W2 m ρ c)).trans a7⟩
  · rw [z1, e1, e3]
  · rw [a5]

/-! ## When the second region is left -/

theorem exit2 :
    W4 m ρ c (Proc.devRef .tc main_v17) = hidden2 (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))
    ∧ W4 m ρ c (Proc.devRef .tc main_v1) = sources (F := Ideal) (m ((c.tc : Thread nD τ).loc main_arg1))
    ∧ W4 m ρ c (Proc.devRef .tc main_v3) = targets (F := Ideal) (m ((c.tc : Thread nD τ).loc main_arg1))
    ∧ W4 m ρ c (Proc.devRef .tc main_arg6) = m ((c.tc : Thread nD τ).loc main_arg6)
    ∧ W4 m ρ c (Proc.devRef .tc main_arg7) = m ((c.tc : Thread nD τ).loc main_arg7) := by
  obtain ⟨h1, b2, a4, e1, e3, a6, a7⟩ := entry2 m ρ c
  refine ⟨?_, (W4_of_ne m ρ c main_v1 (by decide)).trans e1, (W4_of_ne m ρ c main_v3 (by decide)).trans e3,
    (W4_of_ne m ρ c main_arg6 (by decide)).trans a6, (W4_of_ne m ρ c main_arg7 (by decide)).trans a7⟩
  refine (W4_arr m ρ c 3).trans ((Cert.KernelIdeal.Layer1.result (V3 m ρ) c).trans ?_)
  show stage1 (W3 m ρ c (Proc.devRef .tc main_v15)) (W3 m ρ c (Proc.devRef .tc main_arg4)) (rowOf (W3 m ρ c (Proc.devRef .tc main_v16))) = _
  rw [h1, a4, b2]
  rfl

/-! ## When the third region is entered -/

theorem entry3 :
    W9 m ρ c (Proc.devRef .tc main_v27) = aggregate (F := Ideal)
        (hidden2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
        (sources (F := Ideal) (m ((c.tc : Thread nD τ).loc main_arg1))) (targets (F := Ideal) (m ((c.tc : Thread nD τ).loc main_arg1)))
    ∧ W9 m ρ c (Proc.devRef .tc main_v28) = paddedWeights (F := Ideal) (m ((c.tc : Thread nD τ).loc main_arg6))
    ∧ W9 m ρ c (Proc.devRef .tc main_v30) = paddedBias (F := Ideal) (m ((c.tc : Thread nD τ).loc main_arg7)) := by
  obtain ⟨z2, e1, e3, a6, a7⟩ := exit2 m ρ c
  refine ⟨(third_input (W4 m ρ c)).trans ?_, (third_weights (W4 m ρ c)).trans ?_, (third_bias (W4 m ρ c)).trans ?_⟩
  · rw [z2, e1, e3]
  · rw [a6]
  · rw [a7]

/-! ## The return -/

/-- The result buffer at the last boundary is the program's result function of the arguments as launched. -/
theorem result :
    W11 m ρ c (Proc.devRef .tc main_v32) = out (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := by
  obtain ⟨h2, pw, pb⟩ := entry3 m ρ c
  refine (result_column (W10 m ρ c)).trans ?_
  rw [W10_arr m ρ c 3, Cert.KernelIdeal.Layer2.result (V9 m ρ) c]
  show extractStridedSlice S50000x1 ![0, 0]
      (affine (W9 m ρ c (Proc.devRef .tc main_v27)) (W9 m ρ c (Proc.devRef .tc main_v28)) (rowOf (W9 m ρ c (Proc.devRef .tc main_v30))))
      slices_S50000x128_S50000x1_0_0 = _
  rw [h2, pw, pb]
  rfl

end Cert.KernelIdeal.Value

end
-- ==== Proof.LibRowTable.lean ====
/-
  Gathers and accumulating scatters along the ROW axis of an array, driven by an `[E, 1]` table of row numbers —
  what `x[rows]` and `segment_sum(·, rows)` lower to — read at an index, for a vector `[N]` and for a matrix `[N, C]`
  whose rows move whole. Any extents and any index width.

  * A gather reads, at entry `e`, the operand's row number `min (table e) (N - 1)`, the table word read as a signed
    integer and negative words clamped to row 0 (`Int.toNat`). For the matrix form the column is kept.
  * An update `e` of a scatter lands on row `n` exactly when the table word, read signed, IS `n`; a word that is
    negative or at least `N` lands nowhere. For the matrix form the column is kept.

  So the matrix forms are the vector forms applied column by column, with ONE source-row function and ONE
  landing test: this is what lets a contraction over the columns move across a gather and a scatter.
-/
import Idealize.ShloMosaic.Lib.ValueIdx
import Idealize.ShloMosaic.PureOps.Ideal

noncomputable section

namespace Cert.LibRowTable

open Idealize.ShloMosaic Idealize.ShloMosaic.ValueIdx

variable {α : Type}

/-! ## The landing test of any scatter, axis by axis -/

/-- An update lands on the operand index `i` exactly when, on every operand axis, start plus window coordinate is
    `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro heq a
      have h1 := congrFun (Option.some.inj heq) a
      have h2 := congrArg Fin.val h1
      have h3 := (h a).1
      simp only at h2
      omega
    · intro hall
      refine congrArg some (funext fun a => Fin.ext ?_)
      have := hall a
      simp only
      omega
  · rename_i h
    constructor
    · intro heq; exact absurd heq (by simp)
    · intro hall
      exact absurd (fun a => ⟨by rw [hall a]; exact Int.natCast_nonneg _, by rw [hall a]; exact_mod_cast (i a).isLt⟩) h

/-- An operand axis receives a window coordinate exactly when it is not an inserted axis. -/
theorem mem_scatter_sKept {s si u : Shape} (d : ScatterDims s si u) (a : Fin s.rank) : a ∈ d.sKept ↔ a ∉ d.insertedWindowDims := by
  simp [ScatterDims.sKept, Shape.kept, List.mem_filter, List.mem_finRange]

/-! ## The source row of a gather and the landing row of a scatter -/

/-- The row a gather reads for the table word `b`: the word read signed, negative words at 0, clamped to the last row. -/
def srcRow (N : Nat) (hN : 0 < N) {w : Nat} (b : BitVec w) : Fin N := ⟨min b.toInt.toNat (N - 1), by omega⟩

/-! ## A vector `[N]` gathered by an `[E, 1]` table -/

/-- The dimension numbers of `x[rows]` for a vector: the one operand axis collapsed, the table's last axis the index vector. -/
abbrev gatherVec (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector is the operand at the source row of table entry `(e, 0)`. -/
theorem gatherVec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVec N E wf) x idx (ix1 e) = x (ix1 (srcRow N hN (idx (ix2 e (0 : Fin 1))))) := by
  unfold Host.gather
  congr 1
  funext a
  obtain rfl : a = 0 := Subsingleton.elim _ _
  refine Fin.ext ?_
  show (gatherVec N E wf).start (ix1 e) idx 0 + (gatherVec N E wf).batchCoord (ix1 e) 0 + (gatherVec N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVec N E wf).startIndexMap from List.mem_singleton.mpr rfl)]
  have hsi : (gatherVec N E wf).siIdx (ix1 e) ⟨List.idxOf (0 : Fin 1) (gatherVec N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A matrix `[N, C]` whose rows are gathered by an `[E, 1]` table -/

/-- The dimension numbers of `x[rows]` for a matrix: the row axis collapsed, the column axis an offset axis of full width. -/
abbrev gatherRows (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, k)` of the gathered matrix is the operand at the source row of table entry `(e, 0)`, column `k`. -/
theorem gatherRows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRows N C E wf) x idx (ix2 e k) = x (ix2 (srcRow N hN (idx (ix2 e (0 : Fin 1)))) k) := by
  unfold Host.gather
  congr 1
  funext a
  refine Fin.ext ?_
  match a with
  | ⟨0, _⟩ =>
    show (gatherRows N C E wf).start (ix2 e k) idx 0 + (gatherRows N C E wf).batchCoord (ix2 e k) 0 + (gatherRows N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows N C E wf).startIndexMap from List.mem_singleton.mpr rfl)]
    have hsi : (gatherRows N C E wf).siIdx (ix2 e k) ⟨List.idxOf (0 : Fin 2) (gatherRows N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRows N C E wf).start (ix2 e k) idx 1 + (gatherRows N C E wf).batchCoord (ix2 e k) 1 + (gatherRows N C E wf).offCoord (ix2 e k) 1 = k.val
    rw [GatherDims.batchCoord_eq_zero _ _ _ List.not_mem_nil]
    have hs : (gatherRows N C E wf).start (ix2 e k) idx 1 = 0 := by
      unfold GatherDims.start
      rw [dif_neg (show ¬ (1 : Fin 2) ∈ ([0] : List (Fin 2)) by decide)]
    have ho : (gatherRows N C E wf).offCoord (ix2 e k) 1 = k.val := by
      unfold GatherDims.offCoord
      rw [dif_pos ((GatherDims.mem_sKept _ _).mpr ⟨(by decide : ¬ (1 : Fin 2) ∈ ([0] : List (Fin 2))), List.not_mem_nil⟩)]
      rfl
    rw [hs, ho]
    omega

/-! ## Updates `[E]` scattered into a vector `[N]` by an `[E, 1]` table -/

/-- The dimension numbers of `segment_sum` into a vector: the one operand axis inserted, no window axis. -/
abbrev scatterVec (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on row `n` exactly when table entry `(e, 0)`, read signed, is `n`. -/
theorem scatterVec_lands {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (scatterVec N E wf).resultIdx? (ix1 e) idx = some (ix1 n) ↔ (idx (ix2 e (0 : Fin 1))).toInt = (n.val : Int) := by
  rw [resultIdx?_eq_some_iff]
  have hstart : (scatterVec N E wf).start (ix1 e) idx 0 = (idx (ix2 e (0 : Fin 1))).toInt := by
    unfold ScatterDims.start
    rw [dif_pos (show (0 : Fin 1) ∈ (scatterVec N E wf).scatterDimsToOperandDims from List.mem_singleton.mpr rfl)]
    have hsi : (scatterVec N E wf).siIdx (ix1 e) ⟨List.idxOf (0 : Fin 1) (scatterVec N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin : (scatterVec N E wf).window (ix1 e) 0 = 0 := by
    unfold ScatterDims.window
    rw [dif_neg (fun h => ((mem_scatter_sKept _ _).mp h) (List.mem_singleton.mpr rfl))]
  have hn : ((ix1 n : (⟨1, ![N]⟩ : Shape).Idx) 0).val = n.val := rfl
  constructor
  · intro h
    have := h 0
    rw [hstart, hwin, hn] at this
    omega
  · intro h a
    obtain rfl : a = 0 := Subsingleton.elim _ _
    rw [hstart, hwin, hn]
    omega

/-! ## Update rows `[E, C]` scattered into a matrix `[N, C]` by an `[E, 1]` table -/

/-- The dimension numbers of `segment_sum` into a matrix: the row axis inserted, the column axis a window axis. -/
abbrev scatterRows (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, k)` lands on `(n, k')` exactly when table entry `(e, 0)`, read signed, is `n`, and `k = k'`. -/
theorem scatterRows_lands {N C E w : Nat} (wf : ScatterDims.WF ⟨2, ![N, C]⟩ ⟨2, ![E, 1]⟩ ⟨2, ![E, C]⟩ [1] [0] [0] 1)
    (idx : IVec ⟨2, ![E, 1]⟩ w) (e : Fin E) (k : Fin C) (n : Fin N) (k' : Fin C) :
    (scatterRows N C E wf).resultIdx? (ix2 e k) idx = some (ix2 n k')
      ↔ (idx (ix2 e (0 : Fin 1))).toInt = (n.val : Int) ∧ k = k' := by
  rw [resultIdx?_eq_some_iff]
  have hstart0 : (scatterRows N C E wf).start (ix2 e k) idx 0 = (idx (ix2 e (0 : Fin 1))).toInt := by
    unfold ScatterDims.start
    rw [dif_pos (show (0 : Fin 2) ∈ (scatterRows N C E wf).scatterDimsToOperandDims from List.mem_singleton.mpr rfl)]
    have hsi : (scatterRows N C E wf).siIdx (ix2 e k) ⟨List.idxOf (0 : Fin 2) (scatterRows N C E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin0 : (scatterRows N C E wf).window (ix2 e k) 0 = 0 := by
    unfold ScatterDims.window
    rw [dif_neg (fun h => ((mem_scatter_sKept _ _).mp h) (List.mem_singleton.mpr rfl))]
  have hstart1 : (scatterRows N C E wf).start (ix2 e k) idx 1 = 0 := by
    unfold ScatterDims.start
    rw [dif_neg (show ¬ (1 : Fin 2) ∈ ([0] : List (Fin 2)) by decide)]
  have hwin1 : (scatterRows N C E wf).window (ix2 e k) 1 = k.val := by
    unfold ScatterDims.window
    rw [dif_pos ((mem_scatter_sKept _ _).mpr (by decide : ¬ (1 : Fin 2) ∈ ([0] : List (Fin 2))))]
    rfl
  have hn0 : ((ix2 n k' : (⟨2, ![N, C]⟩ : Shape).Idx) 0).val = n.val := rfl
  have hn1 : ((ix2 n k' : (⟨2, ![N, C]⟩ : Shape).Idx) 1).val = k'.val := rfl
  constructor
  · intro h
    have h0 := h 0
    have h1 := h 1
    rw [hstart0, hwin0, hn0] at h0
    rw [hstart1, hwin1, hn1] at h1
    exact ⟨by omega, Fin.ext (by omega)⟩
  · rintro ⟨h, rfl⟩ a
    match a with
    | ⟨0, _⟩ =>
      show (scatterRows N C E wf).start (ix2 e k) idx 0 + ((scatterRows N C E wf).window (ix2 e k) 0 : Int) = (((ix2 n k : (⟨2, ![N, C]⟩ : Shape).Idx) 0).val : Int)
      rw [hstart0, hwin0, hn0]
      omega
    | ⟨1, _⟩ =>
      show (scatterRows N C E wf).start (ix2 e k) idx 1 + ((scatterRows N C E wf).window (ix2 e k) 1 : Int) = (((ix2 n k : (⟨2, ![N, C]⟩ : Shape).Idx) 1).val : Int)
      rw [hstart1, hwin1, hn1]
      omega

end Cert.LibRowTable

end
-- ==== Proof.LibGatherLayers.lean ====
/-
  GENERAL LEMMAS: dense layers under a gather of rows, and a one-column projection computed at a padded width. Nothing here
  mentions a program; every extent is arbitrary.

  * bias_host_any: a vector of ANY length n (1 included) broadcast to one row [1, n] and then along R rows reads, at
    (r, c), the vector at c. (When n = 1 the one column is column 0 whichever way the broadcast reads it.)
  * affine_of_dot_any: a dot_general plus such a bias is the affine layer, for any number of output columns.
  * relu_host: the larger of each entry and a broadcast single-precision zero is the rectifier.
  * gather_stage1: ROWS GATHERED FROM A RECTIFIED DENSE LAYER ARE THE RECTIFIED DENSE LAYER OF THE GATHERED ROWS. Row e of
    either side is the layer's row number r(e), r the gather's source-row function, and that row depends only on row
    r(e) of the layer's input: gathering rows and applying a row-wise map commute.
  * stage1_of_host: the host's spelling of the rectified layer — dot_general, bias broadcast twice, larger with zero.
  * projection_padded: a projection onto ONE output column h · w + b computed as an affine layer of width C, the weight
    column w followed by C - 1 padding columns and the scalar bias followed by C - 1 padding entries, of which column 0
    is then sliced out. Column 0 of the padded weights is w and entry 0 of the padded bias is b, whatever the padding
    value, so column 0 of the wide layer is h · w + b.
  No law of extended-real arithmetic is used beyond re-indexing a finite sum, so nothing here needs finite entries.
-/
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost
import proofs.«111133_j412316860424_1_alg».proof.Proof.LibMatmulRows
import proofs.«111133_j412316860424_1_alg».proof.Proof.LibDenseLayers
import proofs.«111133_j412316860424_1_alg».proof.Proof.LibRowBias
import proofs.«111133_j412316860424_1_alg».proof.Proof.LibRowTable

noncomputable section

namespace Cert.LibGatherLayers

open Idealize.ShloMosaic Idealize.ShloMosaic.ValueIdx
open Cert.LibDenseLayers Cert.LibRowBias Cert.LibRowTable
open scoped BigOperators

/-- A vector of any length broadcast to one row and then along R rows reads, at (r, c), the vector at c. -/
theorem bias_host_any {α : Type} {R n : ℕ} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  have hc : c.val = if n = 1 then 0 else c.val := by
    split
    · have := c.isLt; omega
    · rfl
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => exact hc
  · match a with
    | ⟨0, _⟩ => exact hc

/-- The host's dot_general, plus a vector of any length broadcast to one row and then along the rows, is the affine layer. -/
theorem affine_of_dot_any {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, bias_host_any b h1 h2 p q]
  rfl

/-- The larger of each entry and a single-precision zero broadcast to the array's shape is the rectifier. -/
theorem relu_host {s : Shape} (a : FVec Ideal s .f32) (hb : (⟨0, ![]⟩ : Shape).BroadcastsInDim s (![] : Fin 0 → Fin s.rank)) :
    maximumf a (broadcastInDim s ![] hb (constant (F := Ideal) ⟨0, ![]⟩ .f32 0x00000000#32)) = relu a := rfl

/-- The host's spelling of a rectified dense layer. -/
theorem stage1_of_host {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (hz : (⟨0, ![]⟩ : Shape).BroadcastsInDim ⟨2, ![R, N]⟩ (![] : Fin 0 → Fin 2))
    (h : FVec Ideal ⟨2, ![R, K]⟩ .f32) (W : FVec Ideal ⟨2, ![K, N]⟩ .f32) (b : FVec Ideal ⟨1, ![N]⟩ .f32) :
    maximumf (addf (Host.dotGeneral d none h W)
        (broadcastInDim ⟨2, ![R, N]⟩ ![0, 1] h2 (broadcastInDim ⟨2, ![1, N]⟩ ![1] h1 b)))
      (broadcastInDim ⟨2, ![R, N]⟩ ![] hz (constant (F := Ideal) ⟨0, ![]⟩ .f32 0x00000000#32)) = stage1 h W b := by
  rw [affine_of_dot_any d hrank hsize hl0 hl1 hr0 hr1 h1 h2 h W b]
  rfl

/-- Rows gathered from a rectified dense layer are the rectified dense layer of the gathered rows. -/
theorem gather_stage1 {N K C E w : ℕ} (hN : 0 < N)
    (wfx : GatherDims.WF ⟨2, ![N, K]⟩ ⟨2, ![E, 1]⟩ ⟨2, ![E, K]⟩ [1] [0] [] [0] [] 1 ![1, K])
    (wfz : GatherDims.WF ⟨2, ![N, C]⟩ ⟨2, ![E, 1]⟩ ⟨2, ![E, C]⟩ [1] [0] [] [0] [] 1 ![1, C])
    (x : (⟨2, ![N, K]⟩ : Shape).Idx → EReal) (W : (⟨2, ![K, C]⟩ : Shape).Idx → EReal) (b : (⟨1, ![C]⟩ : Shape).Idx → EReal)
    (idx : IVec ⟨2, ![E, 1]⟩ w) :
    Host.gather (gatherRows N C E wfz) (stage1 x W b) idx = stage1 (Host.gather (gatherRows N K E wfx) x idx) W b := by
  funext j
  obtain ⟨e, q, rfl⟩ : ∃ (e : Fin E) (q : Fin C), j = ix2 e q := ⟨j 0, j 1, eq_ix2 j⟩
  rw [gatherRows_apply hN wfz (stage1 x W b) idx e q]
  exact stage1_row x (Host.gather (gatherRows N K E wfx) x idx) W b _ e
    (fun k => (gatherRows_apply hN wfx x idx e k).symm) q

/-- A one-column projection computed as an affine layer of padded width C, column 0 sliced out, is the projection. -/
theorem projection_padded {R K C : ℕ} (hC : 0 < C)
    (d : DotDims ⟨2, ![R, K]⟩ ⟨2, ![K, 1]⟩ ⟨2, ![R, 1]⟩)
    (hrank : d.contr.rank = 1) (hsize : d.contr.size ⟨0, by omega⟩ = K)
    (hl0 : ∀ (i : (⟨2, ![R, 1]⟩ : Shape).Idx) (s : d.contr.Idx), (d.lhsIdx i s 0).val = (i 0).val)
    (hl1 : ∀ (i : (⟨2, ![R, 1]⟩ : Shape).Idx) (s : d.contr.Idx), (d.lhsIdx i s 1).val = (s ⟨0, by omega⟩).val)
    (hr0 : ∀ (i : (⟨2, ![R, 1]⟩ : Shape).Idx) (s : d.contr.Idx), (d.rhsIdx i s 0).val = (s ⟨0, by omega⟩).val)
    (hr1 : ∀ (i : (⟨2, ![R, 1]⟩ : Shape).Idx) (s : d.contr.Idx), (d.rhsIdx i s 1).val = (i 1).val)
    (h1 : (⟨1, ![1]⟩ : Shape).BroadcastsInDim ⟨2, ![1, 1]⟩ (![1] : Fin 1 → Fin 2))
    (h2 : (⟨2, ![1, 1]⟩ : Shape).BroadcastsInDim ⟨2, ![R, 1]⟩ (![0, 1] : Fin 2 → Fin 2))
    (hiW : Fin 2 → ℕ) (hpW : (⟨2, ![K, 1]⟩ : Shape).Pads (![0, 0] : Fin 2 → ℕ) hiW ![0, 0] ⟨2, ![K, C]⟩)
    (hib : Fin 1 → ℕ) (hpb : (⟨1, ![1]⟩ : Shape).Pads (![0] : Fin 1 → ℕ) hib ![0] ⟨1, ![C]⟩)
    (hc : (⟨1, ![C]⟩ : Shape).ShapeCasts ⟨2, ![1, C]⟩)
    (hs : (⟨2, ![R, C]⟩ : Shape).Slices ![0, 0] ⟨2, ![R, 1]⟩)
    {u u' : Shape} (v : u.Idx → EReal) (hu : 0 < u.numel) (v' : u'.Idx → EReal) (hu' : 0 < u'.numel)
    (H : FVec Ideal ⟨2, ![R, K]⟩ .f32) (w : FVec Ideal ⟨2, ![K, 1]⟩ .f32) (b : FVec Ideal ⟨1, ![1]⟩ .f32) :
    extractStridedSlice ⟨2, ![R, 1]⟩ ![0, 0]
        (affine H (pad ⟨2, ![K, C]⟩ ![0, 0] hiW ![0, 0] w v hpW hu)
          (rowOf (shapeCast ⟨2, ![1, C]⟩ (pad ⟨1, ![C]⟩ ![0] hib ![0] b v' hpb hu') hc))) hs
      = addf (Host.dotGeneral d none H w)
          (broadcastInDim ⟨2, ![R, 1]⟩ ![0, 1] h2 (broadcastInDim ⟨2, ![1, 1]⟩ ![1] h1 b)) := by
  funext j
  obtain ⟨r, z, rfl⟩ : ∃ (r : Fin R) (z : Fin 1), j = ix2 r z := ⟨j 0, j 1, eq_ix2 j⟩
  obtain rfl : z = 0 := Subsingleton.elim _ _
  have hW0 : ∀ k : Fin K, pad ⟨2, ![K, C]⟩ ![0, 0] hiW ![0, 0] w v hpW hu (ix2 k (⟨0, hC⟩ : Fin C)) = w (ix2 k (0 : Fin 1)) :=
    fun k => pad_apply_of_inside ![0, 0] hiW ![0, 0] w v hpW hu (ix2 k (⟨0, hC⟩ : Fin C)) (ix2 k (0 : Fin 1)) (fun a => by
      match a with
      | ⟨0, _⟩ => show k.val = 0 + k.val * (0 + 1); omega
      | ⟨1, _⟩ => show (0 : ℕ) = 0 + 0 * (0 + 1); omega)
  have hb0 : pad ⟨1, ![C]⟩ ![0] hib ![0] b v' hpb hu' (ix1 (⟨0, hC⟩ : Fin C)) = b (ix1 (0 : Fin 1)) :=
    pad_apply_of_inside ![0] hib ![0] b v' hpb hu' (ix1 (⟨0, hC⟩ : Fin C)) (ix1 (0 : Fin 1)) (fun a => by
      match a with
      | ⟨0, _⟩ => show (0 : ℕ) = 0 + 0 * (0 + 1); omega)
  rw [extractStridedSlice_apply ![0, 0] _ hs (ix2 r (0 : Fin 1)) (ix2 r (⟨0, hC⟩ : Fin C)) (fun a => by
      match a with
      | ⟨0, _⟩ => show r.val = 0 + r.val; omega
      | ⟨1, _⟩ => show (0 : ℕ) = 0 + 0; omega)]
  rw [rowOf_shapeCast]
  show (∑ k : Fin K, H (ix2 r k) * pad ⟨2, ![K, C]⟩ ![0, 0] hiW ![0, 0] w v hpW hu (ix2 k (⟨0, hC⟩ : Fin C)))
        + pad ⟨1, ![C]⟩ ![0] hib ![0] b v' hpb hu' (ix1 (⟨0, hC⟩ : Fin C))
      = Host.dotGeneral d none H w (ix2 r (0 : Fin 1))
        + broadcastInDim ⟨2, ![R, 1]⟩ ![0, 1] h2 (broadcastInDim ⟨2, ![1, 1]⟩ ![1] h1 b) (ix2 r (0 : Fin 1))
  rw [Cert.LibMatmulRows.hostdot_rows d hrank hsize hl0 hl1 hr0 hr1 H w r (0 : Fin 1), bias_host_any b h1 h2 r (0 : Fin 1), hb0]
  exact congrArg (· + b (ix1 (0 : Fin 1))) (Finset.sum_congr rfl fun k _ => by rw [hW0 k])

end Cert.LibGatherLayers

end
-- ==== Proof.Bridge.lean ====
/-
  The reference program's result is the kernel program's result function of the arguments.

  One message-passing layer of the reference gathers the sources' rows of its input h FIRST and applies the rectified
  dense layer to the 800000 gathered rows, then adds the message rows at the targets:

      refLayer h = scatter-add at the targets of  rectified ((rows of h at the sources) · W + b).

  The kernel program applies the rectified dense layer to ALL 50000 rows of h first and gathers afterwards:

      aggregate (rectified (h · W + b)).

  Row e of either array of messages is the rectified dense layer's row for the node r(e) the gather reads, and that row
  depends only on row r(e) of h: gathering rows and a row-wise map commute. The message arrays are therefore equal, and
  the scatter-add — the same operation on the same targets on both sides — is applied to equal operands and never
  opened. Twice over, this makes the inputs of the final projection equal. The kernel computes that projection at a
  padded width of 128 columns and slices column 0 out; column 0 of the padded layer is the reference's h · w + b.
  Nothing here uses a law of extended-real arithmetic beyond re-indexing a finite sum: no finiteness is needed.
-/
import proofs.«111133_j412316860424_1_alg».proof.Proof.Gen.ReferenceIdeal.Read
import proofs.«111133_j412316860424_1_alg».proof.Proof.KernelValue
import proofs.«111133_j412316860424_1_alg».proof.Proof.LibGatherLayers

noncomputable section

namespace Cert.ReferenceIdeal.Bridge

open Cert.ReferenceIdeal Cert.ReferenceIdeal.Gen Idealize.ShloMosaic Idealize.ShloMosaic.ValueIdx
open Cert.LibDenseLayers Cert.LibRowBias Cert.LibRowTable Cert.LibGatherLayers

/-- The table of source rows the reference gathers by: the source numbers, a negative one moved up by 50000. -/
def sourceTable (ei : IVec S2x800000 32) : IVec S800000x1 32 :=
  broadcastInDim S800000x1 ![0] bcast_S800000_S800000x1_0
    (select (cmpi .slt (shapeCast _ (extractStridedSlice S1x800000 ![0, 0] ei slices_S2x800000_S1x800000_0_0) shapeCasts_S1x800000_S800000)
        (broadcastInDim S800000 ![] bcast_S_S800000 (constantI S_ 32 0#32)))
      (addi (shapeCast _ (extractStridedSlice S1x800000 ![0, 0] ei slices_S2x800000_S1x800000_0_0) shapeCasts_S1x800000_S800000)
        (broadcastInDim S800000 ![] bcast_S_S800000 (constantI S_ 32 50000#32)))
      (shapeCast _ (extractStridedSlice S1x800000 ![0, 0] ei slices_S2x800000_S1x800000_0_0) shapeCasts_S1x800000_S800000))

/-- One message-passing layer as the reference spells it. -/
def refLayer (h : FVec Ideal S50000x128 .f32) (ei : IVec S2x800000 32) (W : FVec Ideal S128x128 .f32) (b : FVec Ideal S128 .f32) :
    FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0
      (shapeCast _ (extractStridedSlice S1x800000 ![1, 0] ei slices_S2x800000_S1x800000_1_0) shapeCasts_S1x800000_S800000))
    (maximumf
      (addf (Host.dotGeneral (F := Ideal) dot_S800000x128_S128x128_S800000x128_1_0_0_1_n_n none
          (Host.gather gather_S50000x128_S800000x1_S800000x128_1_0_n_n_0_1_1128 h (sourceTable ei)) W)
        (broadcastInDim S800000x128 ![0, 1] bcast_S1x128_S800000x128_0_1 (broadcastInDim S1x128 ![1] bcast_S128_S1x128_1 b)))
      (broadcastInDim S800000x128 ![] bcast_S_S800000x128 (constant (F := Ideal) S_ .f32 0x00000000#32)))

/-- The reference's whole result term, as a function of the eight argument arrays. -/
def refOut (x : FVec Ideal S50000x128 .f32) (ei : IVec S2x800000 32) (W1 : FVec Ideal S128x128 .f32) (b1 : FVec Ideal S128 .f32)
    (W2 : FVec Ideal S128x128 .f32) (b2 : FVec Ideal S128 .f32) (w : FVec Ideal S128x1 .f32) (b : FVec Ideal S1 .f32) : FVec Ideal S50000x1 .f32 :=
  addf (Host.dotGeneral (F := Ideal) dot_S50000x128_S128x1_S50000x1_1_0_0_1_n_n none
      (refLayer (refLayer x ei W1 b1) ei W2 b2) w)
    (broadcastInDim S50000x1 ![0, 1] bcast_S1x1_S50000x1_0_1 (broadcastInDim S1x1 ![1] bcast_S1_S1x1_1 b))

/-- The messages: rows gathered from the rectified dense layer of all rows are the rectified dense layer, in the
    reference's spelling, of the gathered rows. -/
theorem messages (h : FVec Ideal S50000x128 .f32) (W : FVec Ideal S128x128 .f32) (b : FVec Ideal S128 .f32) (T : IVec S800000x1 32) :
    Host.gather gather_S50000x128_S800000x1_S800000x128_1_0_n_n_0_1_1128
        (stage1 h W (rowOf (Cert.KernelIdeal.Stretch.biasRow (F := Ideal) b))) T
      = maximumf
          (addf (Host.dotGeneral (F := Ideal) dot_S800000x128_S128x128_S800000x128_1_0_0_1_n_n none
              (Host.gather gather_S50000x128_S800000x1_S800000x128_1_0_n_n_0_1_1128 h T) W)
            (broadcastInDim S800000x128 ![0, 1] bcast_S1x128_S800000x128_0_1 (broadcastInDim S1x128 ![1] bcast_S128_S1x128_1 b)))
          (broadcastInDim S800000x128 ![] bcast_S_S800000x128 (constant (F := Ideal) S_ .f32 0x00000000#32)) := by
  unfold Cert.KernelIdeal.Stretch.biasRow
  rw [rowOf_shapeCast]
  refine (gather_stage1 (N := 50000) (K := 128) (C := 128) (E := 800000) (by decide)
    gather_S50000x128_S800000x1_S800000x128_1_0_n_n_0_1_1128_wf gather_S50000x128_S800000x1_S800000x128_1_0_n_n_0_1_1128_wf
    h W b T).trans ?_
  exact (stage1_of_host dot_S800000x128_S128x128_S800000x128_1_0_0_1_n_n rfl rfl
    Cert.ReferenceIdeal.Read.lhs_main_v11_0 Cert.ReferenceIdeal.Read.lhs_main_v11_1
    Cert.ReferenceIdeal.Read.rhs_main_v11_0 Cert.ReferenceIdeal.Read.rhs_main_v11_1
    bcast_S128_S1x128_1 bcast_S1x128_S800000x128_0_1 bcast_S_S800000x128
    (Host.gather gather_S50000x128_S800000x1_S800000x128_1_0_n_n_0_1_1128 h T) W b).symm

/-- Both programs spell the aggregation — the table of source rows, the gather by it, the scatter-add at the targets —
    with the same operations on the same operands: one term. -/
theorem aggregation_same (z : FVec Ideal S50000x128 .f32) (ei : IVec S2x800000 32) :
    Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0
          (shapeCast _ (extractStridedSlice S1x800000 ![1, 0] ei slices_S2x800000_S1x800000_1_0) shapeCasts_S1x800000_S800000))
        (Host.gather gather_S50000x128_S800000x1_S800000x128_1_0_n_n_0_1_1128 z (sourceTable ei))
      = Cert.KernelIdeal.Stretch.aggregate (F := Ideal) z (Cert.KernelIdeal.Stretch.sources (F := Ideal) ei) (Cert.KernelIdeal.Stretch.targets (F := Ideal) ei) := rfl

/-- One layer: the reference's gather-then-dense is the kernel program's dense-then-gather. -/
theorem refLayer_eq (h : FVec Ideal S50000x128 .f32) (ei : IVec S2x800000 32) (W : FVec Ideal S128x128 .f32) (b : FVec Ideal S128 .f32) :
    refLayer h ei W b
      = Cert.KernelIdeal.Stretch.aggregate (F := Ideal) (stage1 h W (rowOf (Cert.KernelIdeal.Stretch.biasRow (F := Ideal) b)))
          (Cert.KernelIdeal.Stretch.sources (F := Ideal) ei) (Cert.KernelIdeal.Stretch.targets (F := Ideal) ei) := by
  unfold refLayer
  rw [← messages h W b (sourceTable ei)]
  exact aggregation_same _ ei

/-- The whole result: the reference's term is the kernel program's result function. -/
theorem refOut_eq (x : FVec Ideal S50000x128 .f32) (ei : IVec S2x800000 32) (W1 : FVec Ideal S128x128 .f32) (b1 : FVec Ideal S128 .f32)
    (W2 : FVec Ideal S128x128 .f32) (b2 : FVec Ideal S128 .f32) (w : FVec Ideal S128x1 .f32) (b : FVec Ideal S1 .f32) :
    refOut x ei W1 b1 W2 b2 w b = Cert.KernelIdeal.Value.out x ei W1 b1 W2 b2 w b := by
  unfold refOut Cert.KernelIdeal.Value.out Cert.KernelIdeal.Value.hidden2 Cert.KernelIdeal.Value.hidden1
  rw [← refLayer_eq x ei W1 b1, ← refLayer_eq (refLayer x ei W1 b1) ei W2 b2]
  unfold Cert.KernelIdeal.Stretch.paddedWeights Cert.KernelIdeal.Stretch.paddedBias Cert.KernelIdeal.Stretch.biasRow
  exact (projection_padded (R := 50000) (K := 128) (C := 128) (by decide)
    dot_S50000x128_S128x1_S50000x1_1_0_0_1_n_n rfl rfl
    Cert.ReferenceIdeal.Read.lhs_main_v34_0 Cert.ReferenceIdeal.Read.lhs_main_v34_1
    Cert.ReferenceIdeal.Read.rhs_main_v34_0 Cert.ReferenceIdeal.Read.rhs_main_v34_1
    bcast_S1_S1x1_1 bcast_S1x1_S50000x1_0_1
    ![0, 127] Cert.KernelIdeal.Gen.pads_S128x1_S128x128_000_01270
    ![127] Cert.KernelIdeal.Gen.pads_S1_S128_01270
    Cert.KernelIdeal.Gen.shapeCasts_S128_S1x128 Cert.KernelIdeal.Gen.slices_S50000x128_S50000x1_0_0
    _ Cert.KernelIdeal.Gen.h_S_ _ Cert.KernelIdeal.Gen.h_S_
    (refLayer (refLayer x ei W1 b1) ei W2 b2) w b).symm

end Cert.ReferenceIdeal.Bridge

end
-- ==== Proof.lean ====
/-
  A two-layer message-passing network on a graph of 50000 nodes and 800000 edges, followed by a projection onto one
  output per node: the kernel program against its reference, on extended reals.

  One layer sends node features h to   sum over the edges e into node n of  rectified (h(source e) · W + b).
  The reference gathers the sources' rows first and applies the rectified dense layer to the 800000 gathered rows. The
  kernel program applies the rectified dense layer once to all 50000 rows — in a kernel region, ten blocks of 5000 rows —
  and gathers afterwards. A dense layer acts row by row, so gathering rows commutes with it: the two arrays of messages
  are equal entry by entry, and the summation over edges, the same host operation on the same targets in both programs,
  is applied to equal operands. The final projection h · w + b the kernel program computes at a padded width of 128
  columns (the weight column and the bias followed by padding) in a third region, and slices column 0 out; column 0 of
  the padded layer is h · w + b.

  Both sides are the SAME sums of the SAME products in the same order of summation, so no law that fails at the
  infinities is used and the precondition (finite inputs) is never opened. The idealization rewrote no operation, so
  the kernel's sanctioned idealization is the program's own text and there is nothing to preserve.

  The modules:  DenseBodies — the three kernel bodies at an entry; Layer0, Layer1, Layer2 — each region's output array as
  the layer of its whole input array; Stretches — the host operations between the regions; WholeRun — the program's run
  with the result buffer read; KernelValue — the result as one function of the eight arguments; Bridge — the reference's
  term is that function.
-/
import proofs.«111133_j412316860424_1_alg».proof.Defs
import proofs.«111133_j412316860424_1_alg».proof.Proof.Gen.Kernel
import proofs.«111133_j412316860424_1_alg».proof.Proof.Gen.Kernel.Frame
import proofs.«111133_j412316860424_1_alg».proof.Proof.Gen.KernelIdeal
import proofs.«111133_j412316860424_1_alg».proof.Proof.Gen.KernelIdeal.Frame
import proofs.«111133_j412316860424_1_alg».proof.Proof.Gen.ReferenceIdeal
import proofs.«111133_j412316860424_1_alg».proof.Proof.Gen.Pre_finite_inputs
import proofs.«111133_j412316860424_1_alg».proof.Proof.Gen.ReferenceIdeal.Run
import proofs.«111133_j412316860424_1_alg».proof.Proof.Gen.ReferenceIdeal.Read
import proofs.«111133_j412316860424_1_alg».proof.Proof.WholeRun
import proofs.«111133_j412316860424_1_alg».proof.Proof.KernelValue
import proofs.«111133_j412316860424_1_alg».proof.Proof.Bridge
import Idealize.ShloMosaic.Adequacy
import Idealize.ShloMosaic.Init

noncomputable section

namespace Cert.Proof

open Idealize.ShloMosaic Idealize.SL.Sem

/-- The kernel program runs and leaves its arguments as launched. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the same result: the kernel program's result
    buffer holds its result function of the arguments, and the reference's term is that function. -/
theorem algebraic : Cert.algebraic_KernelIdeal_ReferenceIdeal := by
  intro m ρ m' ρ' _ hagree
  refine ⟨fun c => Cert.KernelIdeal.Value.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Value.result m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [a0, a1, a2, a3, a4, a5, a6, a7]
    exact Cert.ReferenceIdeal.Bridge.refOut_eq
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
